-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000x15 : Shape := ⟨2, ![1000000, 15]⟩
abbrev S131x131 : Shape := ⟨2, ![131, 131]⟩
abbrev S131 : Shape := ⟨1, ![131]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S1000000x15 : S_.BroadcastsInDim S1000000x15 (![] : Fin 0 → Fin S1000000x15.rank)
  reducesTo_S1000000x15_S_d0_1 : S1000000x15.ReducesTo [0, 1] S_
  bcast_S_S131x131 : S_.BroadcastsInDim S131x131 (![] : Fin 0 → Fin S131x131.rank)
  reducesTo_S131x131_S_d0_1 : S131x131.ReducesTo [0, 1] S_
  bcast_S_S131 : S_.BroadcastsInDim S131 (![] : Fin 0 → Fin S131.rank)
  reducesTo_S131_S_d0 : S131.ReducesTo [0] S_

variable [Facts]

def fn_part1 {F : FTy → Type} [FloatOps F] (main_v13 : IVec S_ 1) (main_v16 : IVec S131 1) : IVec S_ 1 :=
  let main_c_5 : IVec S_ 1 := constantI S_ 1 1#1
  let main_v17 : IVec S_ 1 := (fun x v => Host.reduce IntOp.andi x v reducesTo_S131_S_d0 h_S_) main_v16 main_c_5
  let main_v18 : IVec S_ 1 := andi main_v13 main_v17
  main_v18

def fn {F : FTy → Type} [FloatOps F] (main_arg0 : FVec F S1000000x128 .f32) (main_arg1 : FVec F S1000000x15 .f32) (main_arg2 : FVec F S131x131 .f32) (main_arg3 : FVec F S131 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S1000000x15 .f32 := Host.absf main_arg1
  let main_cst_0 : FVec F S_ .f32 := constant S_ .f32 0x7F800000#32
  let main_v5 : FVec F S1000000x15 .f32 := broadcastInDim S1000000x15 ![] bcast_S_S1000000x15 main_cst_0
  let main_v6 : IVec S1000000x15 1 := cmpf .olt main_v4 main_v5
  let main_c_1 : IVec S_ 1 := constantI S_ 1 1#1
  let main_v7 : IVec S_ 1 := (fun x v => Host.reduce IntOp.andi x v reducesTo_S1000000x15_S_d0_1 h_S_) main_v6 main_c_1
  let main_v8 : IVec S_ 1 := andi main_v3 main_v7
  let main_v9 : FVec F S131x131 .f32 := Host.absf main_arg2
  let main_cst_2 : FVec F S_ .f32 := constant S_ .f32 0x7F800000#32
  let main_v10 : FVec F S131x131 .f32 := broadcastInDim S131x131 ![] bcast_S_S131x131 main_cst_2
  let main_v11 : IVec S131x131 1 := cmpf .olt main_v9 main_v10
  let main_c_3 : IVec S_ 1 := constantI S_ 1 1#1
  let main_v12 : IVec S_ 1 := (fun x v => Host.reduce IntOp.andi x v reducesTo_S131x131_S_d0_1 h_S_) main_v11 main_c_3
  let main_v13 : IVec S_ 1 := andi main_v8 main_v12
  let main_v14 : FVec F S131 .f32 := Host.absf main_arg3
  let main_cst_4 : FVec F S_ .f32 := constant S_ .f32 0x7F800000#32
  let main_v15 : FVec F S131 .f32 := broadcastInDim S131 ![] bcast_S_S131 main_cst_4
  let main_v16 : IVec S131 1 := cmpf .olt main_v14 main_v15
  fn_part1 (F := F) main_v13 main_v16
-- ==== Kernel.lean ====
abbrev S1000000x128 : Shape := ⟨2, ![1000000, 128]⟩
abbrev S1000000x15 : Shape := ⟨2, ![1000000, 15]⟩
abbrev S131x131 : Shape := ⟨2, ![131, 131]⟩
abbrev S131 : Shape := ⟨1, ![131]⟩
abbrev S128x128 : Shape := ⟨2, ![128, 128]⟩
abbrev S128x3 : Shape := ⟨2, ![128, 3]⟩
abbrev S3x128 : Shape := ⟨2, ![3, 128]⟩
abbrev S3x3 : Shape := ⟨2, ![3, 3]⟩
abbrev S128 : Shape := ⟨1, ![128]⟩
abbrev S1x128 : Shape := ⟨2, ![1, 128]⟩
abbrev S3 : Shape := ⟨1, ![3]⟩
abbrev S1x3 : Shape := ⟨2, ![1, 3]⟩
abbrev S10000x128 : Shape := ⟨2, ![10000, 128]⟩
abbrev S10000x15 : Shape := ⟨2, ![10000, 15]⟩
abbrev S10000x3 : Shape := ⟨2, ![10000, 3]⟩
abbrev S10000 : Shape := ⟨1, ![10000]⟩
abbrev S10000x1 : Shape := ⟨2, ![10000, 1]⟩
abbrev S10000x5 : Shape := ⟨2, ![10000, 5]⟩
abbrev S10000x7 : Shape := ⟨2, ![10000, 7]⟩

abbrev nBuf : Space → Nat
  | .hbm => 15
  | .vmem => 14
  | .smem => 0
  | _ => 0

abbrev bufTy : (tb : Table) → Fin (tcTables nBuf tb) → BufTy
  | .hbm, ⟨0, _⟩ => ⟨S1000000x128, .f32⟩
  | .hbm, ⟨1, _⟩ => ⟨S1000000x15, .f32⟩
  | .hbm, ⟨2, _⟩ => ⟨S131x131, .f32⟩
  | .hbm, ⟨3, _⟩ => ⟨S131, .f32⟩
  | .hbm, ⟨4, _⟩ => ⟨S131x131, .f32⟩
  | .hbm, ⟨5, _⟩ => ⟨S128x128, .f32⟩
  | .hbm, ⟨6, _⟩ => ⟨S128x3, .f32⟩
  | .hbm, ⟨7, _⟩ => ⟨S3x128, .f32⟩
  | .hbm, ⟨8, _⟩ => ⟨S3x3, .f32⟩
  | .hbm, ⟨9, _⟩ => ⟨S128, .f32⟩
  | .hbm, ⟨10, _⟩ => ⟨S1x128, .f32⟩
  | .hbm, ⟨11, _⟩ => ⟨S3, .f32⟩
  | .hbm, ⟨12, _⟩ => ⟨S1x3, .f32⟩
  | .hbm, ⟨13, _⟩ => ⟨S1000000x128, .f32⟩
  | .hbm, ⟨14, _⟩ => ⟨S1000000x15, .f32⟩
  | .local _ .vmem, ⟨0, _⟩ => ⟨S10000x128, .f32⟩
  | .local _ .vmem, ⟨1, _⟩ => ⟨S10000x128, .f32⟩
  | .local _ .vmem, ⟨2, _⟩ => ⟨S10000x15, .f32⟩
  | .local _ .vmem, ⟨3, _⟩ => ⟨S10000x15, .f32⟩
  | .local _ .vmem, ⟨4, _⟩ => ⟨S128x128, .f32⟩
  | .local _ .vmem, ⟨5, _⟩ => ⟨S128x3, .f32⟩
  | .local _ .vmem, ⟨6, _⟩ => ⟨S3x128, .f32⟩
  | .local _ .vmem, ⟨7, _⟩ => ⟨S3x3, .f32⟩
  | .local _ .vmem, ⟨8, _⟩ => ⟨S1x128, .f32⟩
  | .local _ .vmem, ⟨9, _⟩ => ⟨S1x3, .f32⟩
  | .local _ .vmem, ⟨10, _⟩ => ⟨S10000x128, .f32⟩
  | .local _ .vmem, ⟨11, _⟩ => ⟨S10000x128, .f32⟩
  | .local _ .vmem, ⟨12, _⟩ => ⟨S10000x15, .f32⟩
  | .local _ .vmem, ⟨13, _⟩ => ⟨S10000x15, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x15 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S10000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S10000x15 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S131x131_S131x131_1_0 : S131x131.Transposes [1, 0] S131x131
  slices_S131x131_S128x128_0_0 : S131x131.Slices ![0, 0] S128x128
  slices_S131x131_S128x3_0_128 : S131x131.Slices ![0, 128] S128x3
  slices_S131x131_S3x128_128_0 : S131x131.Slices ![128, 0] S3x128
  slices_S131x131_S3x3_128_128 : S131x131.Slices ![128, 128] S3x3
  slices_S131_S128_0 : S131.Slices ![0] S128
  shapeCasts_S128_S1x128 : S128.ShapeCasts S1x128
  slices_S131_S3_128 : S131.Slices ![128] S3
  shapeCasts_S3_S1x3 : S3.ShapeCasts S1x3
  inb_S10000x15_S10000x15_0_0 : ∀ a, (![0, 0] : Fin 2 → Nat) a + S10000x15.size a ≤ S10000x15.size a
  h_S10000x15 : 0 < S10000x15.numel
  slices_S10000x15_o0_0_S10000x3 : S10000x15.Slices ![0, 0] S10000x3
  reduces_S10000x3_S10000 : S10000x3.Reduces [1] S10000
  shapeCasts_S10000_S10000x1 : S10000.ShapeCasts S10000x1
  slices_S10000x15_o0_3_S10000x5 : S10000x15.Slices ![0, 3] S10000x5
  reduces_S10000x5_S10000 : S10000x5.Reduces [1] S10000
  slices_S10000x15_o0_8_S10000x7 : S10000x15.Slices ![0, 8] S10000x7
  reduces_S10000x7_S10000 : S10000x7.Reduces [1] S10000
  concatenates_S10000x1_S10000x1_S10000x1_S10000x3_d1 : Shape.Concatenates [S10000x1, S10000x1, S10000x1] S10000x3 1
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S3x3_S3x3_0_0 : ∀ a, (![0, 0] : Fin 2 → Nat) a + S3x3.size a ≤ S3x3.size a
  h_S3x3 : 0 < S3x3.numel
  shapeCasts_S3x3_S3x3 : S3x3.ShapeCasts S3x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S10000x3 : S1x3.Broadcasts S10000x3
  slices_S10000x3_o0_0_S10000x1 : S10000x3.Slices ![0, 0] S10000x1
  shapeCasts_S10000x1_S10000x1 : S10000x1.ShapeCasts S10000x1
  broadcasts_S10000x1_S10000x3 : S10000x1.Broadcasts S10000x3
  slices_S10000x3_o0_1_S10000x1 : S10000x3.Slices ![0, 1] S10000x1
  broadcasts_S10000x1_S10000x5 : S10000x1.Broadcasts S10000x5
  slices_S10000x3_o0_2_S10000x1 : S10000x3.Slices ![0, 2] S10000x1
  broadcasts_S10000x1_S10000x7 : S10000x1.Broadcasts S10000x7
  concatenates_S10000x3_S10000x5_S10000x7_S10000x15_d1 : Shape.Concatenates [S10000x3, S10000x5, S10000x7] S10000x15 1
  dot_S10000x128_S128x128_S10000x128_1_0_0_1_n_n_wf : DotDims.WF S10000x128 S128x128 S10000x128 [1] [0] [0] [1] [] []
  dot_S10000x3_S3x128_S10000x128_1_0_0_1_n_n_wf : DotDims.WF S10000x3 S3x128 S10000x128 [1] [0] [0] [1] [] []
  dot_S10000x128_S128x3_S10000x3_1_0_0_1_n_n_wf : DotDims.WF S10000x128 S128x3 S10000x3 [1] [0] [0] [1] [] []
  dot_S10000x3_S3x3_S10000x3_1_0_0_1_n_n_wf : DotDims.WF S10000x3 S3x3 S10000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S1000000x128.size a
  hwx0_0 : ∀ i : grid0.Coords, EltTy.bits .f32 = 32 ∨ (Rect.block (s := S1000000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x15.size a ≤ S1000000x15.size a
  hwx0_1 : ∀ i : grid0.Coords, EltTy.bits .f32 = 32 ∨ (Rect.block (s := S1000000x15) S10000x15.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x3.size a ≤ S128x3.size a
  hwx0_3 : ∀ i : grid0.Coords, EltTy.bits .f32 = 32 ∨ (Rect.block (s := S128x3) S128x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x128.size a ≤ S3x128.size a
  hwx0_4 : ∀ i : grid0.Coords, EltTy.bits .f32 = 32 ∨ (Rect.block (s := S3x128) S3x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x3.size a ≤ S3x3.size a
  hwx0_5 : ∀ i : grid0.Coords, EltTy.bits .f32 = 32 ∨ (Rect.block (s := S3x3) S3x3.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x3.size a ≤ S1x3.size a
  hwx0_7 : ∀ i : grid0.Coords, EltTy.bits .f32 = 32 ∨ (Rect.block (s := S1x3) S1x3.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S10000x128.size a ≤ S1000000x128.size a
  hwx0_8 : ∀ i : grid0.Coords, EltTy.bits .f32 = 32 ∨ (Rect.block (s := S1000000x128) S10000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x15.size a ≤ S1000000x15.size a
  hwx0_9 : ∀ i : grid0.Coords, EltTy.bits .f32 = 32 ∨ (Rect.block (s := S1000000x15) S10000x15.size (cc0_transform_9 i) (hinb0_9 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x3_S3x128_S10000x128_1_0_0_1_n_n : DotDims S10000x3 S3x128 S10000x128 where
  lhsContracting := [1]
  rhsContracting := [0]
  lhsNonContracting := [0]
  rhsNonContracting := [1]
  lhsBatch := []
  rhsBatch := []
  wf := dot_S10000x3_S3x128_S10000x128_1_0_0_1_n_n_wf
def dot_S10000x128_S128x3_S10000x3_1_0_0_1_n_n : DotDims S10000x128 S128x3 S10000x3 where
  lhsContracting := [1]
  rhsContracting := [0]
  lhsNonContracting := [0]
  rhsNonContracting := [1]
  lhsBatch := []
  rhsBatch := []
  wf := dot_S10000x128_S128x3_S10000x3_1_0_0_1_n_n_wf
def dot_S10000x3_S3x3_S10000x3_1_0_0_1_n_n : DotDims S10000x3 S3x3 S10000x3 where
  lhsContracting := [1]
  rhsContracting := [0]
  lhsNonContracting := [0]
  rhsNonContracting := [1]
  lhsBatch := []
  rhsBatch := []
  wf := dot_S10000x3_S3x3_S10000x3_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x15.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S3x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S3x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9_0) S10000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9_1) S10000x15.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1000000x128 : Shape := ⟨2, ![1000000, 128]⟩
abbrev S1000000x15 : Shape := ⟨2, ![1000000, 15]⟩
abbrev S131x131 : Shape := ⟨2, ![131, 131]⟩
abbrev S131 : Shape := ⟨1, ![131]⟩
abbrev S3 : Shape := ⟨1, ![3]⟩
abbrev S1000000x3 : Shape := ⟨2, ![1000000, 3]⟩
abbrev S_ : Shape := ⟨0, ![]⟩
abbrev S1000000 : Shape := ⟨1, ![1000000]⟩
abbrev S1000000x5 : Shape := ⟨2, ![1000000, 5]⟩
abbrev S1000000x7 : Shape := ⟨2, ![1000000, 7]⟩
abbrev S1000000x1 : Shape := ⟨2, ![1000000, 1]⟩
abbrev S1000000x131 : Shape := ⟨2, ![1000000, 131]⟩
abbrev S1x131 : Shape := ⟨2, ![1, 131]⟩
abbrev S1 : Shape := ⟨1, ![1]⟩
abbrev S2 : Shape := ⟨1, ![2]⟩
abbrev S15 : Shape := ⟨1, ![15]⟩
abbrev S3x1 : Shape := ⟨2, ![3, 1]⟩
abbrev S15x1 : Shape := ⟨2, ![15, 1]⟩
abbrev S1x1 : Shape := ⟨2, ![1, 1]⟩

abbrev nBuf : Space → Nat
  | .hbm => 80
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000x15, .f32⟩
  | .hbm, ⟨2, _⟩ => ⟨S131x131, .f32⟩
  | .hbm, ⟨3, _⟩ => ⟨S131, .f32⟩
  | .hbm, ⟨4, _⟩ => ⟨S3, .i32⟩
  | .hbm, ⟨5, _⟩ => ⟨S1000000x15, .f32⟩
  | .hbm, ⟨6, _⟩ => ⟨S1000000x3, .f32⟩
  | .hbm, ⟨7, _⟩ => ⟨S_, .f32⟩
  | .hbm, ⟨8, _⟩ => ⟨S1000000, .f32⟩
  | .hbm, ⟨9, _⟩ => ⟨S1000000x5, .f32⟩
  | .hbm, ⟨10, _⟩ => ⟨S_, .f32⟩
  | .hbm, ⟨11, _⟩ => ⟨S1000000, .f32⟩
  | .hbm, ⟨12, _⟩ => ⟨S1000000x7, .f32⟩
  | .hbm, ⟨13, _⟩ => ⟨S_, .f32⟩
  | .hbm, ⟨14, _⟩ => ⟨S1000000, .f32⟩
  | .hbm, ⟨15, _⟩ => ⟨S1000000x1, .f32⟩
  | .hbm, ⟨16, _⟩ => ⟨S1000000x1, .f32⟩
  | .hbm, ⟨17, _⟩ => ⟨S1000000x1, .f32⟩
  | .hbm, ⟨18, _⟩ => ⟨S1000000x3, .f32⟩
  | .hbm, ⟨19, _⟩ => ⟨S1000000x131, .f32⟩
  | .hbm, ⟨20, _⟩ => ⟨S131x131, .f32⟩
  | .hbm, ⟨21, _⟩ => ⟨S1000000x131, .f32⟩
  | .hbm, ⟨22, _⟩ => ⟨S1x131, .f32⟩
  | .hbm, ⟨23, _⟩ => ⟨S1000000x131, .f32⟩
  | .hbm, ⟨24, _⟩ => ⟨S1000000x131, .f32⟩
  | .hbm, ⟨25, _⟩ => ⟨S1000000x128, .f32⟩
  | .hbm, ⟨26, _⟩ => ⟨S1000000x3, .f32⟩
  | .hbm, ⟨27, _⟩ => ⟨S1, .i32⟩
  | .hbm, ⟨28, _⟩ => ⟨S2, .i32⟩
  | .hbm, ⟨29, _⟩ => ⟨S3, .i32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S3, .i32⟩
  | .hbm, ⟨34, _⟩ => ⟨S_, .i32⟩
  | .hbm, ⟨35, _⟩ => ⟨S_, .i32⟩
  | .hbm, ⟨36, _⟩ => ⟨S3, .i32⟩
  | .hbm, ⟨37, _⟩ => ⟨S_, .i32⟩
  | .hbm, ⟨38, _⟩ => ⟨S15, .i32⟩
  | .hbm, ⟨39, _⟩ => ⟨S_, .i32⟩
  | .hbm, ⟨40, _⟩ => ⟨S3, .i32⟩
  | .hbm, ⟨41, _⟩ => ⟨S3, .i1⟩
  | .hbm, ⟨42, _⟩ => ⟨S_, .i32⟩
  | .hbm, ⟨43, _⟩ => ⟨S3, .i32⟩
  | .hbm, ⟨44, _⟩ => ⟨S3, .i32⟩
  | .hbm, ⟨45, _⟩ => ⟨S3, .i32⟩
  | .hbm, ⟨46, _⟩ => ⟨S3x1, .i32⟩
  | .hbm, ⟨47, _⟩ => ⟨S_, .i32⟩
  | .hbm, ⟨48, _⟩ => ⟨S3, .i32⟩
  | .hbm, ⟨49, _⟩ => ⟨S15, .i32⟩
  | .hbm, ⟨50, _⟩ => ⟨S_, .i32⟩
  | .hbm, ⟨51, _⟩ => ⟨S_, .i32⟩
  | .hbm, ⟨52, _⟩ => ⟨S15, .i32⟩
  | .hbm, ⟨53, _⟩ => ⟨S_, .i32⟩
  | .hbm, ⟨54, _⟩ => ⟨S15, .i32⟩
  | .hbm, ⟨55, _⟩ => ⟨S15, .i32⟩
  | .hbm, ⟨56, _⟩ => ⟨S_, .i32⟩
  | .hbm, ⟨57, _⟩ => ⟨S15, .i32⟩
  | .hbm, ⟨58, _⟩ => ⟨S15, .i1⟩
  | .hbm, ⟨59, _⟩ => ⟨S_, .i32⟩
  | .hbm, ⟨60, _⟩ => ⟨S15, .i32⟩
  | .hbm, ⟨61, _⟩ => ⟨S15, .i32⟩
  | .hbm, ⟨62, _⟩ => ⟨S15, .i32⟩
  | .hbm, ⟨63, _⟩ => ⟨S15x1, .i32⟩
  | .hbm, ⟨64, _⟩ => ⟨S1, .i32⟩
  | .hbm, ⟨65, _⟩ => ⟨S_, .i32⟩
  | .hbm, ⟨66, _⟩ => ⟨S15x1, .i32⟩
  | .hbm, ⟨67, _⟩ => ⟨S15x1, .i1⟩
  | .hbm, ⟨68, _⟩ => ⟨S1x1, .i32⟩
  | .hbm, ⟨69, _⟩ => ⟨S15x1, .i32⟩
  | .hbm, ⟨70, _⟩ => ⟨S15x1, .i1⟩
  | .hbm, ⟨71, _⟩ => ⟨S15x1, .i1⟩
  | .hbm, ⟨72, _⟩ => ⟨S_, .i1⟩
  | .hbm, ⟨73, _⟩ => ⟨S15, .i1⟩
  | .hbm, ⟨74, _⟩ => ⟨S1000000x15, .f32⟩
  | .hbm, ⟨75, _⟩ => ⟨S1000000x15, .i1⟩
  | .hbm, ⟨76, _⟩ => ⟨S_, .f32⟩
  | .hbm, ⟨77, _⟩ => ⟨S1000000x15, .f32⟩
  | .hbm, ⟨78, _⟩ => ⟨S1000000x15, .f32⟩
  | .hbm, ⟨79, _⟩ => ⟨S1000000x15, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_call1_call0_c : Ref sig .tc := ⟨.hbm, 34, rfl⟩
abbrev main_call1_call0_v0 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_call2_call0_c : Ref sig .tc := ⟨.hbm, 50, rfl⟩
abbrev main_call2_call0_v0 : Ref sig .tc := ⟨.hbm, 51, rfl⟩
abbrev main_v32 : Ref sig .tc := ⟨.hbm, 52, rfl⟩
abbrev main_c_8 : Ref sig .tc := ⟨.hbm, 53, rfl⟩
abbrev main_v33 : Ref sig .tc := ⟨.hbm, 54, rfl⟩
abbrev main_v34 : Ref sig .tc := ⟨.hbm, 55, rfl⟩
abbrev main_call3_c : Ref sig .tc := ⟨.hbm, 56, rfl⟩
abbrev main_call3_v0 : Ref sig .tc := ⟨.hbm, 57, rfl⟩
abbrev main_call3_v1 : Ref sig .tc := ⟨.hbm, 58, rfl⟩
abbrev main_call3_c_0 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_call3_v5 : Ref sig .tc := ⟨.hbm, 63, rfl⟩
abbrev main_call3_c_1 : Ref sig .tc := ⟨.hbm, 64, rfl⟩
abbrev main_call3_c_2 : Ref sig .tc := ⟨.hbm, 65, rfl⟩
abbrev main_call3_v6 : Ref sig .tc := ⟨.hbm, 66, rfl⟩
abbrev main_call3_v7 : Ref sig .tc := ⟨.hbm, 67, rfl⟩
abbrev main_call3_v8 : Ref sig .tc := ⟨.hbm, 68, rfl⟩
abbrev main_call3_v9 : Ref sig .tc := ⟨.hbm, 69, rfl⟩
abbrev main_call3_v10 : Ref sig .tc := ⟨.hbm, 70, rfl⟩
abbrev main_call3_v11 : Ref sig .tc := ⟨.hbm, 71, rfl⟩
abbrev main_call3_c_3 : Ref sig .tc := ⟨.hbm, 72, rfl⟩
abbrev main_call3_v12 : Ref sig .tc := ⟨.hbm, 73, rfl⟩
abbrev main_call3_v13 : Ref sig .tc := ⟨.hbm, 74, rfl⟩
abbrev main_call3_v14 : Ref sig .tc := ⟨.hbm, 75, rfl⟩
abbrev main_call3_cst : Ref sig .tc := ⟨.hbm, 76, rfl⟩
abbrev main_call3_v15 : Ref sig .tc := ⟨.hbm, 77, rfl⟩
abbrev main_v35 : Ref sig .tc := ⟨.hbm, 78, rfl⟩
abbrev main_v36 : Ref sig .tc := ⟨.hbm, 79, rfl⟩

abbrev nD : Nat := 1
abbrev τ : Topo := Topo.v7x

variable {F : FTy → Type} [FloatOps F]

class Facts₀ : Prop where
  slices_S1000000x15_S1000000x3_0_0 : S1000000x15.Slices ![0, 0] S1000000x3
  reducesTo_S1000000x3_S1000000_d1 : S1000000x3.ReducesTo [1] S1000000
  h_S_ : 0 < S_.numel
  slices_S1000000x15_S1000000x5_0_3 : S1000000x15.Slices ![0, 3] S1000000x5
  reducesTo_S1000000x5_S1000000_d1 : S1000000x5.ReducesTo [1] S1000000
  slices_S1000000x15_S1000000x7_0_8 : S1000000x15.Slices ![0, 8] S1000000x7
  reducesTo_S1000000x7_S1000000_d1 : S1000000x7.ReducesTo [1] S1000000
  bcast_S1000000_S1000000x1_0 : S1000000.BroadcastsInDim S1000000x1 (![0] : Fin 1 → Fin S1000000x1.rank)
  concatenates_S1000000x1_S1000000x1_S1000000x1_S1000000x3_d1 : Shape.Concatenates [S1000000x1, S1000000x1, S1000000x1] S1000000x3 1
  concatenates_S1000000x128_S1000000x3_S1000000x131_d1 : Shape.Concatenates [S1000000x128, S1000000x3] S1000000x131 1
  transposes_S131x131_S131x131_1_0 : S131x131.Transposes [1, 0] S131x131
  bcast_S131_S1x131_1 : S131.BroadcastsInDim S1x131 (![1] : Fin 1 → Fin S1x131.rank)
  bcast_S1x131_S1000000x131_0_1 : S1x131.BroadcastsInDim S1000000x131 (![0, 1] : Fin 2 → Fin S1000000x131.rank)
  slices_S1000000x131_S1000000x128_0_0 : S1000000x131.Slices ![0, 0] S1000000x128
  slices_S1000000x131_S1000000x3_0_128 : S1000000x131.Slices ![0, 128] S1000000x3
  slices_S3_S1_2 : S3.Slices ![2] S1
  slices_S3_S2_0 : S3.Slices ![0] S2
  concatenates_S1_S2_S3_d0 : Shape.Concatenates [S1, S2] S3 0
  bcast_S_S1 : S_.BroadcastsInDim S1 (![] : Fin 0 → Fin S1.rank)
  bcast_S_S_ : S_.BroadcastsInDim S_ (![] : Fin 0 → Fin S_.rank)
  reduceWindows_S3_S3_w3s1p2_0 : S3.ReduceWindows (![3] : Fin 1 → Nat) ![1] ![2] ![0] S3
  bcast_S_S15 : S_.BroadcastsInDim S15 (![] : Fin 0 → Fin S15.rank)
  bcast_S_S3 : S_.BroadcastsInDim S3 (![] : Fin 0 → Fin S3.rank)
  bcast_S3_S3x1_0 : S3.BroadcastsInDim S3x1 (![0] : Fin 1 → Fin S3x1.rank)
  reduceWindows_S15_S15_w15s1p14_0 : S15.ReduceWindows (![15] : Fin 1 → Nat) ![1] ![14] ![0] S15
  bcast_S15_S15x1_0 : S15.BroadcastsInDim S15x1 (![0] : Fin 1 → Fin S15x1.rank)
  bcast_S_S15x1 : S_.BroadcastsInDim S15x1 (![] : Fin 0 → Fin S15x1.rank)
  bcast_S1_S1x1_1 : S1.BroadcastsInDim S1x1 (![1] : Fin 1 → Fin S1x1.rank)
  bcast_S1x1_S15x1_0_1 : S1x1.BroadcastsInDim S15x1 (![0, 1] : Fin 2 → Fin S15x1.rank)
  reducesTo_S15x1_S15_d1 : S15x1.ReducesTo [1] S15
  bcast_S15_S1000000x15_1 : S15.BroadcastsInDim S1000000x15 (![1] : Fin 1 → Fin S1000000x15.rank)
  bcast_S_S1000000x15 : S_.BroadcastsInDim S1000000x15 (![] : Fin 0 → Fin S1000000x15.rank)
  dot_S1000000x131_S131x131_S1000000x131_1_0_0_1_n_n_wf : DotDims.WF S1000000x131 S131x131 S1000000x131 [1] [0] [0] [1] [] []
  scatter_S3_S1_S__n_0_0_0_wf : ScatterDims.WF S3 S1 S_ [] [0] [0] 0
  scatter_S15_S3x1_S3_n_0_0_1_wf : ScatterDims.WF S15 S3x1 S3 [] [0] [0] 1
  gather_S1000000x3_S15x1_S1000000x15_0_1_n_n_1_1_10000001_wf : GatherDims.WF S1000000x3 S15x1 S1000000x15 [0] [1] [] [1] [] 1 ![1000000, 1]

variable [Facts₀]

def dot_S1000000x131_S131x131_S1000000x131_1_0_0_1_n_n : DotDims S1000000x131 S131x131 S1000000x131 where
  lhsContracting := [1]
  rhsContracting := [0]
  lhsNonContracting := [0]
  rhsNonContracting := [1]
  lhsBatch := []
  rhsBatch := []
  wf := dot_S1000000x131_S131x131_S1000000x131_1_0_0_1_n_n_wf
def scatter_S3_S1_S__n_0_0_0 : ScatterDims S3 S1 S_ where
  updateWindowDims := []
  insertedWindowDims := [0]
  scatterDimsToOperandDims := [0]
  indexVectorDim := 0
  wf := scatter_S3_S1_S__n_0_0_0_wf
def scatter_S15_S3x1_S3_n_0_0_1 : ScatterDims S15 S3x1 S3 where
  updateWindowDims := []
  insertedWindowDims := [0]
  scatterDimsToOperandDims := [0]
  indexVectorDim := 1
  wf := scatter_S15_S3x1_S3_n_0_0_1_wf
def gather_S1000000x3_S15x1_S1000000x15_0_1_n_n_1_1_10000001 : GatherDims S1000000x3 S15x1 S1000000x15 where
  offsetDims := [0]
  collapsedSliceDims := [1]
  operandBatchingDims := []
  startIndicesBatchingDims := []
  startIndexMap := [1]
  indexVectorDim := 1
  sliceSizes := ![1000000, 1]
  wf := gather_S1000000x3_S15x1_S1000000x15_0_1_n_n_1_1_10000001_wf

class Facts : Prop extends Facts₀ where

variable [Facts]
-- ==== Proof.Spec.lean ====
/-
  The function both programs compute, stated once over plain index types, for any number `N` of rows.

  A row `n` has 128 invariant features `inv (n, ·)` and 15 equivariant features `ev (n, ·)` in three segments
  (columns 0–2, 3–7, 8–14). Its three segment sums are the sums of the squares of a segment's columns. A linear layer
  with 131 inputs — the 128 invariant features followed by the three segment sums — and 131 outputs is given by its
  weights split four ways (inputs `k < 128` or `j < 3`, outputs `o < 128` or `g < 3`) and its bias split in two:
      outInv (n, o) = (Σ_k inv(n,k)·A(k,o) + Σ_j seg(n,j)·B(j,o)) + bi(o)
      gate   (n, g) = (Σ_k inv(n,k)·C(k,g) + Σ_j seg(n,j)·D(j,g)) + bg(g)
      outEv  (n, c) = gate (n, segment of c) · ev (n, c).
  Each depends on the arrays only through row `n` (`*_congr`): a block of rows computes the same numbers as the
  whole array at the rows it holds. A sum over 131 inputs splits into the sum over the first 128 and the last 3
  (`sum_split`); only the commutative-monoid laws of the extended reals are used, so nothing needs to be finite.
-/
import Idealize.ShloMosaic.PureOps.Ideal
import Idealize.ShloMosaic.Lib.ValueIdx

noncomputable section

open scoped BigOperators

namespace Cert.Spec

open Idealize.ShloMosaic Idealize.ShloMosaic.ValueIdx

/-- The segment (0, 1 or 2) of a column: columns 0–2, 3–7, 8–14. -/
def colSeg (c : Fin 15) : Fin 3 := if c.val < 3 then 0 else if c.val < 8 then 1 else 2

/-- The three segment sums of row `n`: the squares of columns 0–2, 3–7 and 8–14 summed. -/
def segSum {N : Nat} (ev : (⟨2, ![N, 15]⟩ : Shape).Idx → EReal) (n : Fin N) : Fin 3 → EReal
  | ⟨0, _⟩ => ∑ k : Fin 3, ev (ix2 n (⟨0 + k.val, by omega⟩ : Fin 15)) * ev (ix2 n (⟨0 + k.val, by omega⟩ : Fin 15))
  | ⟨1, _⟩ => ∑ k : Fin 5, ev (ix2 n (⟨3 + k.val, by omega⟩ : Fin 15)) * ev (ix2 n (⟨3 + k.val, by omega⟩ : Fin 15))
  | ⟨2, _⟩ => ∑ k : Fin 7, ev (ix2 n (⟨8 + k.val, by omega⟩ : Fin 15)) * ev (ix2 n (⟨8 + k.val, by omega⟩ : Fin 15))
  | ⟨_ + 3, h⟩ => absurd h (Nat.not_lt.2 (Nat.le_add_left _ _))

/-- The segment sums read only row `n`. -/
theorem segSum_congr {N N' : Nat} (ev : (⟨2, ![N, 15]⟩ : Shape).Idx → EReal) (ev' : (⟨2, ![N', 15]⟩ : Shape).Idx → EReal)
    (n : Fin N) (n' : Fin N') (h : ∀ c : Fin 15, ev (ix2 n c) = ev' (ix2 n' c)) (j : Fin 3) :
    segSum ev n j = segSum ev' n' j := by
  match j with
  | ⟨0, _⟩ => exact Finset.sum_congr rfl fun k _ => by rw [h]
  | ⟨1, _⟩ => exact Finset.sum_congr rfl fun k _ => by rw [h]
  | ⟨2, _⟩ => exact Finset.sum_congr rfl fun k _ => by rw [h]

/-- One output of the linear layer at row `n`: inputs the 128 invariant features and the three segment sums, weights
    `A` and `B` for the two groups of inputs, bias `bi`. -/
def layer {N M : Nat} (inv : (⟨2, ![N, 128]⟩ : Shape).Idx → EReal) (ev : (⟨2, ![N, 15]⟩ : Shape).Idx → EReal)
    (A : Fin 128 → Fin M → EReal) (B : Fin 3 → Fin M → EReal) (bi : Fin M → EReal) (n : Fin N) (o : Fin M) : EReal :=
  (∑ k : Fin 128, inv (ix2 n k) * A k o + ∑ j : Fin 3, segSum ev n j * B j o) + bi o

/-- The layer reads only row `n` of the two feature arrays and column `o` of the weights and bias. -/
theorem layer_congr {N N' M M' : Nat} (inv : (⟨2, ![N, 128]⟩ : Shape).Idx → EReal) (ev : (⟨2, ![N, 15]⟩ : Shape).Idx → EReal)
    (inv' : (⟨2, ![N', 128]⟩ : Shape).Idx → EReal) (ev' : (⟨2, ![N', 15]⟩ : Shape).Idx → EReal)
    (A : Fin 128 → Fin M → EReal) (B : Fin 3 → Fin M → EReal) (bi : Fin M → EReal)
    (A' : Fin 128 → Fin M' → EReal) (B' : Fin 3 → Fin M' → EReal) (bi' : Fin M' → EReal) (n : Fin N) (n' : Fin N')
    (o : Fin M) (o' : Fin M')
    (hi : ∀ k : Fin 128, inv (ix2 n k) = inv' (ix2 n' k)) (he : ∀ c : Fin 15, ev (ix2 n c) = ev' (ix2 n' c))
    (hA : ∀ k : Fin 128, A k o = A' k o') (hB : ∀ j : Fin 3, B j o = B' j o') (hb : bi o = bi' o') :
    layer inv ev A B bi n o = layer inv' ev' A' B' bi' n' o' := by
  unfold layer
  have e1 : ∑ k : Fin 128, inv (ix2 n k) * A k o = ∑ k : Fin 128, inv' (ix2 n' k) * A' k o' :=
    Finset.sum_congr rfl fun k _ => by rw [hi k, hA k]
  have e2 : ∑ j : Fin 3, segSum ev n j * B j o = ∑ j : Fin 3, segSum ev' n' j * B' j o' :=
    Finset.sum_congr rfl fun j _ => by rw [segSum_congr ev ev' n n' he j, hB j]
  rw [e1, e2, hb]

/-- The gated equivariant output at row `n`, column `c`: the gate of the column's segment times the feature. -/
def gated {N : Nat} (inv : (⟨2, ![N, 128]⟩ : Shape).Idx → EReal) (ev : (⟨2, ![N, 15]⟩ : Shape).Idx → EReal)
    (C : Fin 128 → Fin 3 → EReal) (D : Fin 3 → Fin 3 → EReal) (bg : Fin 3 → EReal) (n : Fin N) (c : Fin 15) : EReal :=
  layer inv ev C D bg n (colSeg c) * ev (ix2 n c)

/-- It too reads only row `n`, and the weights and bias entrywise. -/
theorem gated_congr {N N' : Nat} (inv : (⟨2, ![N, 128]⟩ : Shape).Idx → EReal) (ev : (⟨2, ![N, 15]⟩ : Shape).Idx → EReal)
    (inv' : (⟨2, ![N', 128]⟩ : Shape).Idx → EReal) (ev' : (⟨2, ![N', 15]⟩ : Shape).Idx → EReal)
    (C : Fin 128 → Fin 3 → EReal) (D : Fin 3 → Fin 3 → EReal) (bg : Fin 3 → EReal)
    (C' : Fin 128 → Fin 3 → EReal) (D' : Fin 3 → Fin 3 → EReal) (bg' : Fin 3 → EReal) (n : Fin N) (n' : Fin N')
    (hi : ∀ k : Fin 128, inv (ix2 n k) = inv' (ix2 n' k)) (he : ∀ c : Fin 15, ev (ix2 n c) = ev' (ix2 n' c))
    (hC : ∀ (k : Fin 128) (g : Fin 3), C k g = C' k g) (hD : ∀ (j : Fin 3) (g : Fin 3), D j g = D' j g)
    (hb : ∀ g : Fin 3, bg g = bg' g) (c : Fin 15) :
    gated inv ev C D bg n c = gated inv' ev' C' D' bg' n' c := by
  unfold gated
  rw [layer_congr inv ev inv' ev' C D bg C' D' bg' n n' (colSeg c) (colSeg c) hi he (fun k => hC k _) (fun j => hD j _) (hb _), he c]

/-- A sum over 131 inputs is the sum over the first 128 plus the sum over the last 3. -/
theorem sum_split (f : Fin 131 → EReal) :
    ∑ k : Fin 131, f k = ∑ i : Fin 128, f ⟨i.val, by omega⟩ + ∑ j : Fin 3, f ⟨128 + j.val, by omega⟩ :=
  Fin.sum_univ_add (a := 128) (b := 3) (fun k : Fin (128 + 3) => f k)

/-! ## The two results over the whole arrays -/

/-- The weight from input `k` to output `o` of the full 131 × 131 layer is `W (o, k)`. -/
abbrev Wt := (⟨2, ![131, 131]⟩ : Shape).Idx → EReal
abbrev Bs := (⟨1, ![131]⟩ : Shape).Idx → EReal

/-- The first result: outputs 0–127 of the layer, for every row. -/
def G8 (inv : (⟨2, ![1000000, 128]⟩ : Shape).Idx → EReal) (ev : (⟨2, ![1000000, 15]⟩ : Shape).Idx → EReal) (W : Wt) (b : Bs) :
    (⟨2, ![1000000, 128]⟩ : Shape).Idx → EReal := fun i =>
  layer inv ev (fun k o => W (ix2 (⟨o.val, by omega⟩ : Fin 131) (⟨k.val, by omega⟩ : Fin 131)))
    (fun j o => W (ix2 (⟨o.val, by omega⟩ : Fin 131) (⟨128 + j.val, by omega⟩ : Fin 131)))
    (fun o => b (ix1 (⟨o.val, by omega⟩ : Fin 131)))
    (⟨(i 0).val, idx2_lt0 i⟩ : Fin 1000000) (⟨(i 1).val, idx2_lt1 i⟩ : Fin 128)

/-- The second result: outputs 128–130 of the layer repeated over their segments' columns, times the features. -/
def G9 (inv : (⟨2, ![1000000, 128]⟩ : Shape).Idx → EReal) (ev : (⟨2, ![1000000, 15]⟩ : Shape).Idx → EReal) (W : Wt) (b : Bs) :
    (⟨2, ![1000000, 15]⟩ : Shape).Idx → EReal := fun i =>
  gated inv ev (fun k g => W (ix2 (⟨128 + g.val, by omega⟩ : Fin 131) (⟨k.val, by omega⟩ : Fin 131)))
    (fun j g => W (ix2 (⟨128 + g.val, by omega⟩ : Fin 131) (⟨128 + j.val, by omega⟩ : Fin 131)))
    (fun g => b (ix1 (⟨128 + g.val, by omega⟩ : Fin 131)))
    (⟨(i 0).val, idx2_lt0 i⟩ : Fin 1000000) (⟨(i 1).val, idx2_lt1 i⟩ : Fin 15)

end Cert.Spec

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.LibRowOps.lean ====
/-
  Row-wise operations of two-dimensional arrays read at one entry, on the extended reals, at ANY extents.

  * A sum along the columns of an [R, C] matrix (a reduction over axis 1) read at row p is Σ_{k < C} src(p, k): for the
    vector unit's reduction from the zero word (`rowAdd_apply`) and for the host's reduction from an initial value,
    which is added in front (`hostRowAdd_apply`).
  * A vector [a] viewed as a column [a, 1] reads, at (i, u), the vector at i (`shapeCast_a_a1_apply`); a column
    [a, 1] repeated along b columns reads, at (p, c), the column at (p, 0) (`broadcastTo_a1_ab_apply`).
  * The host's general matrix product of [R, K] by [K, C], contracting the left operand's axis 1 with the right
    operand's axis 0, read at (p, q), is Σ_{k < K} l(p, k) · r(k, q) (`dotGeneral_ix2`): the contraction's one-axis
    index is re-indexed over `Fin K`, and the operand indices at result entry (p, q) and position k are (p, k), (k, q).
  * Three matrices of a, b and c columns laid side by side read, at a column, the matrix whose span of columns holds it,
    at the column less the widths before it (`concat3_apply_0`, `_1`, `_2`; for two matrices `concat2_apply_0`, `_1`).
  Imports only the library.
-/
import Idealize.ShloMosaic.PureOps.Ideal.Laws
import Idealize.ShloMosaic.Lib.ValueIdx
import Idealize.ShloMosaic.Lib.Pipeline.Value

noncomputable section

open scoped BigOperators

namespace Cert.LibRowOps

open Idealize.ShloMosaic Idealize.ShloMosaic.ValueIdx

/-- A sum along the columns of an [R, C] matrix, at row p, is the sum over the columns of that row's entries. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (p : Fin R) :
    multiReduction .add [1] ⟨1, ![R]⟩ src 0x00000000#32 h hφ hacc (ix1 p) = ∑ k : Fin C, src (ix2 p k) :=
  (Ideal.multiReduction_add_single src _ h hφ hacc (ix1 p)).trans
    (Finset.sum_congr rfl fun k _ => congrArg src (funext fun d => Fin.ext (by
      match d with
      | ⟨0, _⟩ => rfl
      | ⟨1, _⟩ => rfl)))

/-- The host's sum along the columns, at row p: the initial value plus the sum over the columns of that row's entries. -/
theorem hostRowAdd_apply {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduceAdd (F := Ideal) x init h' hu (ix1 p) = init (Shape.Idx.first hu) + ∑ k : Fin C, x (ix2 p k) :=
  (Ideal.hostReduceAdd_single h' h x (init (Shape.Idx.first hu)) (ix1 p)).trans
    (congrArg (init (Shape.Idx.first hu) + ·) (Finset.sum_congr rfl fun k _ => congrArg x (funext fun d => Fin.ext (by
      match d with
      | ⟨0, _⟩ => rfl
      | ⟨1, _⟩ => rfl))))

/-- A vector [a] viewed as a column [a, 1] reads, at (i, u), the vector at i. -/
theorem shapeCast_a_a1_apply {α : Type} {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along b columns reads, at (p, c), the column at (p, 0). -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `dot_general D l r (p, q) = Σ_k l(p, k) · r(k, q)` at the ideal values, for two-dimensional operands with one
    contracted axis (the left operand's axis 1 with the right operand's axis 0). -/
theorem dotGeneral_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    Host.dotGeneral (F := Ideal) D prec l r (ix2 p q) = ∑ k : Fin K, l (ix2 p k) * r (ix2 k q) := by
  refine (Ideal.dotGeneral_apply D prec _ l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

/-! ## Three matrices side by side -/

section Concat3
variable {α : Type} {R a b c n : Nat}
  (x1 : (⟨2, ![R, a]⟩ : Shape).Idx → α) (x2 : (⟨2, ![R, b]⟩ : Shape).Idx → α) (x3 : (⟨2, ![R, c]⟩ : Shape).Idx → α)
  (h : Shape.Concatenates [(⟨2, ![R, a]⟩ : Shape), ⟨2, ![R, b]⟩, ⟨2, ![R, c]⟩] ⟨2, ![R, n]⟩ 1)

/-- Three matrices of a, b and c columns side by side read, at a column q below a, the first at column q. -/
theorem concat3_apply_0 (p : Fin R) (q : Fin n) (q' : Fin a) (hq : q'.val = q.val) :
    concatenate ⟨2, ![R, n]⟩ 1 [⟨⟨2, ![R, a]⟩, x1⟩, ⟨⟨2, ![R, b]⟩, x2⟩, ⟨⟨2, ![R, c]⟩, x3⟩] h (ix2 p q) = x1 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat3_apply_1 (p : Fin R) (q : Fin n) (q' : Fin b) (hq : a + q'.val = q.val) :
    concatenate ⟨2, ![R, n]⟩ 1 [⟨⟨2, ![R, a]⟩, x1⟩, ⟨⟨2, ![R, b]⟩, x2⟩, ⟨⟨2, ![R, c]⟩, x3⟩] h (ix2 p q) = x2 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

/-- At a column a + b + q', the third at column q'. -/
theorem concat3_apply_2 (p : Fin R) (q : Fin n) (q' : Fin c) (hq : a + b + q'.val = q.val) :
    concatenate ⟨2, ![R, n]⟩ 1 [⟨⟨2, ![R, a]⟩, x1⟩, ⟨⟨2, ![R, b]⟩, x2⟩, ⟨⟨2, ![R, c]⟩, x3⟩] h (ix2 p q) = x3 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 2 (by simp)
    ⟨2, ![R, c]⟩ x3 rfl rfl (a + b) (by simp) (ix2 p q')
    (fun d hd => by
      match d with
      | ⟨0, _⟩ => rfl
      | ⟨1, _⟩ => exact absurd rfl hd)
    (by show a + b + q'.val = q.val; omega)

end Concat3

/-! ## Two matrices side by side -/

section Concat2
variable {α : Type} {R a b n : Nat}
  (x1 : (⟨2, ![R, a]⟩ : Shape).Idx → α) (x2 : (⟨2, ![R, b]⟩ : Shape).Idx → α)
  (h : Shape.Concatenates [(⟨2, ![R, a]⟩ : Shape), ⟨2, ![R, b]⟩] ⟨2, ![R, n]⟩ 1)

/-- Two matrices of a and b columns side by side read, at a column q below a, the first at column q. -/
theorem concat2_apply_0 (p : Fin R) (q : Fin n) (q' : Fin a) (hq : q'.val = q.val) :
    concatenate ⟨2, ![R, n]⟩ 1 [⟨⟨2, ![R, a]⟩, x1⟩, ⟨⟨2, ![R, b]⟩, x2⟩] h (ix2 p q) = x1 (ix2 p q') :=
  concatenate_apply_piece (t := ⟨2, ![R, n]⟩) (1 : Fin 2) [⟨⟨2, ![R, a]⟩, x1⟩, ⟨⟨2, ![R, b]⟩, x2⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat2_apply_1 (p : Fin R) (q : Fin n) (q' : Fin b) (hq : a + q'.val = q.val) :
    concatenate ⟨2, ![R, n]⟩ 1 [⟨⟨2, ![R, a]⟩, x1⟩, ⟨⟨2, ![R, b]⟩, x2⟩] h (ix2 p q) = x2 (ix2 p q') :=
  concatenate_apply_piece (t := ⟨2, ![R, n]⟩) (1 : Fin 2) [⟨⟨2, ![R, a]⟩, x1⟩, ⟨⟨2, ![R, b]⟩, x2⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

end Concat2

end Cert.LibRowOps

end
-- ==== Proof.KernelPay.lean ====
/-
  The kernel body's arithmetic read at one entry of a block, on the extended reals.

  A block holds 10000 rows. From the row's fifteen equivariant features the body forms the three segment sums of their
  squares (a product, three column slices, a sum along each slice's columns, the three sums side by side); the first
  store's value is the row's 128 invariant features times a 128 × 128 weight block, plus the segment sums times a
  3 × 128 weight block, plus a bias row; the second store's value is the same with a 128 × 3 and a 3 × 3 weight block
  and a 3-wide bias, each of its three columns repeated over its segment's columns (3, 5 and 7 of them), times the
  features. Every lemma is stated over arbitrary blocks, with indices given by coordinates.
-/
import proofs.«125287_j13889924235382_2_alg».proof.Proof.Gen.KernelIdeal.Skeleton
import proofs.«125287_j13889924235382_2_alg».proof.Proof.Spec
import proofs.«125287_j13889924235382_2_alg».proof.Proof.LibMatmulZero
import proofs.«125287_j13889924235382_2_alg».proof.Proof.LibRowOps
import Idealize.ShloMosaic.Lib.ValueLayout

noncomputable section

open scoped BigOperators

namespace Cert.KernelIdeal.Pay

open Idealize.ShloMosaic Idealize.ShloMosaic.ValueIdx Cert.KernelIdeal Cert.KernelIdeal.Gen
open Cert.LibRowOps Cert.LibMatmulZero

/-- The three segment sums of a block's row. -/
theorem pay2_apply (v0 : FVec Ideal S10000x15 .f32) (p : Fin 10000) (j : Fin 3) :
    k0_pay2 (F := Ideal) v0 (ix2 p j) = Spec.segSum v0 p j := by
  unfold k0_pay2
  match j with
  | ⟨0, _⟩ =>
    refine (concat3_apply_0 _ _ _ _ p (⟨0, by omega⟩ : Fin 3) (0 : Fin 1) rfl).trans ?_
    refine (shapeCast_a_a1_apply _ _ p 0).trans ?_
    refine (rowAdd_apply _ _ _ _ p).trans ?_
    exact Finset.sum_congr rfl fun k _ => slice2_axis1_apply 0 _ _ p k (⟨0 + k.val, by omega⟩ : Fin 15) rfl
  | ⟨1, _⟩ =>
    refine (concat3_apply_1 _ _ _ _ p (⟨1, by omega⟩ : Fin 3) (0 : Fin 1) rfl).trans ?_
    refine (shapeCast_a_a1_apply _ _ p 0).trans ?_
    refine (rowAdd_apply _ _ _ _ p).trans ?_
    exact Finset.sum_congr rfl fun k _ => slice2_axis1_apply 3 _ _ p k (⟨3 + k.val, by omega⟩ : Fin 15) rfl
  | ⟨2, _⟩ =>
    refine (concat3_apply_2 _ _ _ _ p (⟨2, by omega⟩ : Fin 3) (0 : Fin 1) rfl).trans ?_
    refine (shapeCast_a_a1_apply _ _ p 0).trans ?_
    refine (rowAdd_apply _ _ _ _ p).trans ?_
    exact Finset.sum_congr rfl fun k _ => slice2_axis1_apply 8 _ _ p k (⟨8 + k.val, by omega⟩ : Fin 15) rfl

/-! ## The four matrix products' dimension numbers: result axis 0 is the left operand's axis 0, result axis 1 the right's axis 1 -/

theorem d1_l0 (i : S10000x128.Idx) (c : dot_S10000x128_S128x128_S10000x128_1_0_0_1_n_n.contr.Idx) :
    (dot_S10000x128_S128x128_S10000x128_1_0_0_1_n_n.lhsIdx i c 0).val = (i 0).val := by
  unfold DotDims.lhsIdx
  rw [dif_neg (show ¬(0 : Fin _) ∈ dot_S10000x128_S128x128_S10000x128_1_0_0_1_n_n.lhsBatch by decide),
    dif_pos (show (0 : Fin _) ∈ dot_S10000x128_S128x128_S10000x128_1_0_0_1_n_n.lhsNonContracting by decide)]
  rfl
theorem d1_r1 (i : S10000x128.Idx) (c : dot_S10000x128_S128x128_S10000x128_1_0_0_1_n_n.contr.Idx) :
    (dot_S10000x128_S128x128_S10000x128_1_0_0_1_n_n.rhsIdx i c 1).val = (i 1).val := by
  unfold DotDims.rhsIdx
  rw [dif_neg (show ¬(1 : Fin _) ∈ dot_S10000x128_S128x128_S10000x128_1_0_0_1_n_n.rhsBatch by decide),
    dif_pos (show (1 : Fin _) ∈ dot_S10000x128_S128x128_S10000x128_1_0_0_1_n_n.rhsNonContracting by decide)]
  rfl
theorem d2_l0 (i : S10000x128.Idx) (c : dot_S10000x3_S3x128_S10000x128_1_0_0_1_n_n.contr.Idx) :
    (dot_S10000x3_S3x128_S10000x128_1_0_0_1_n_n.lhsIdx i c 0).val = (i 0).val := by
  unfold DotDims.lhsIdx
  rw [dif_neg (show ¬(0 : Fin _) ∈ dot_S10000x3_S3x128_S10000x128_1_0_0_1_n_n.lhsBatch by decide),
    dif_pos (show (0 : Fin _) ∈ dot_S10000x3_S3x128_S10000x128_1_0_0_1_n_n.lhsNonContracting by decide)]
  rfl
theorem d2_r1 (i : S10000x128.Idx) (c : dot_S10000x3_S3x128_S10000x128_1_0_0_1_n_n.contr.Idx) :
    (dot_S10000x3_S3x128_S10000x128_1_0_0_1_n_n.rhsIdx i c 1).val = (i 1).val := by
  unfold DotDims.rhsIdx
  rw [dif_neg (show ¬(1 : Fin _) ∈ dot_S10000x3_S3x128_S10000x128_1_0_0_1_n_n.rhsBatch by decide),
    dif_pos (show (1 : Fin _) ∈ dot_S10000x3_S3x128_S10000x128_1_0_0_1_n_n.rhsNonContracting by decide)]
  rfl
theorem d3_l0 (i : S10000x3.Idx) (c : dot_S10000x128_S128x3_S10000x3_1_0_0_1_n_n.contr.Idx) :
    (dot_S10000x128_S128x3_S10000x3_1_0_0_1_n_n.lhsIdx i c 0).val = (i 0).val := by
  unfold DotDims.lhsIdx
  rw [dif_neg (show ¬(0 : Fin _) ∈ dot_S10000x128_S128x3_S10000x3_1_0_0_1_n_n.lhsBatch by decide),
    dif_pos (show (0 : Fin _) ∈ dot_S10000x128_S128x3_S10000x3_1_0_0_1_n_n.lhsNonContracting by decide)]
  rfl
theorem d3_r1 (i : S10000x3.Idx) (c : dot_S10000x128_S128x3_S10000x3_1_0_0_1_n_n.contr.Idx) :
    (dot_S10000x128_S128x3_S10000x3_1_0_0_1_n_n.rhsIdx i c 1).val = (i 1).val := by
  unfold DotDims.rhsIdx
  rw [dif_neg (show ¬(1 : Fin _) ∈ dot_S10000x128_S128x3_S10000x3_1_0_0_1_n_n.rhsBatch by decide),
    dif_pos (show (1 : Fin _) ∈ dot_S10000x128_S128x3_S10000x3_1_0_0_1_n_n.rhsNonContracting by decide)]
  rfl
theorem d4_l0 (i : S10000x3.Idx) (c : dot_S10000x3_S3x3_S10000x3_1_0_0_1_n_n.contr.Idx) :
    (dot_S10000x3_S3x3_S10000x3_1_0_0_1_n_n.lhsIdx i c 0).val = (i 0).val := by
  unfold DotDims.lhsIdx
  rw [dif_neg (show ¬(0 : Fin _) ∈ dot_S10000x3_S3x3_S10000x3_1_0_0_1_n_n.lhsBatch by decide),
    dif_pos (show (0 : Fin _) ∈ dot_S10000x3_S3x3_S10000x3_1_0_0_1_n_n.lhsNonContracting by decide)]
  rfl
theorem d4_r1 (i : S10000x3.Idx) (c : dot_S10000x3_S3x3_S10000x3_1_0_0_1_n_n.contr.Idx) :
    (dot_S10000x3_S3x3_S10000x3_1_0_0_1_n_n.rhsIdx i c 1).val = (i 1).val := by
  unfold DotDims.rhsIdx
  rw [dif_neg (show ¬(1 : Fin _) ∈ dot_S10000x3_S3x3_S10000x3_1_0_0_1_n_n.rhsBatch by decide),
    dif_pos (show (1 : Fin _) ∈ dot_S10000x3_S3x3_S10000x3_1_0_0_1_n_n.rhsNonContracting by decide)]
  rfl

/-! ## The first store's value -/

/-- The first store's value at row p, output o: the layer with the loaded weight and bias blocks. -/
theorem pay3_apply (v0 : FVec Ideal S10000x15 .f32) (v12 : FVec Ideal S10000x128 .f32) (v13 : FVec Ideal S128x128 .f32)
    (v16 : FVec Ideal S3x128 .f32) (v20 : FVec Ideal S1x128 .f32) (p : Fin 10000) (o : Fin 128) :
    k0_pay3 (F := Ideal) v0 v12 v13 v16 v20 (ix2 p o)
      = Spec.layer v12 v0 (fun k o => v13 (ix2 k o)) (fun j o => v16 (ix2 j o)) (fun o => v20 (ix2 (0 : Fin 1) o)) p o := by
  have e15 : matmul dot_S10000x128_S128x128_S10000x128_1_0_0_1_n_n none v12 (shapeCast S128x128 v13 shapeCasts_S128x128_S128x128)
      (constant (F := Ideal) S10000x128 .f32 0x00000000#32) (ix2 p o) = ∑ k : Fin 128, v12 (ix2 p k) * v13 (ix2 k o) := by
    rw [shapeCast_self]
    exact matmul_zero_ix2 _ rfl rfl rfl rfl d1_l0 d1_r1 none v12 v13 p o
  have e18 : matmul dot_S10000x3_S3x128_S10000x128_1_0_0_1_n_n none (k0_pay2 (F := Ideal) v0) (shapeCast S3x128 v16 shapeCasts_S3x128_S3x128)
      (constant (F := Ideal) S10000x128 .f32 0x00000000#32) (ix2 p o) = ∑ j : Fin 3, Spec.segSum v0 p j * v16 (ix2 j o) := by
    rw [shapeCast_self]
    refine (matmul_zero_ix2 _ rfl rfl rfl rfl d2_l0 d2_r1 none (k0_pay2 (F := Ideal) v0) v16 p o).trans ?_
    exact Finset.sum_congr rfl fun j _ => by rw [pay2_apply]
  have e22 : broadcastTo S10000x128 (shapeCast S1x128 v20 shapeCasts_S1x128_S1x128) broadcasts_S1x128_S10000x128 (ix2 p o)
      = v20 (ix2 (0 : Fin 1) o) := by
    rw [shapeCast_self]
    exact broadcastTo_1b_ab_apply v20 _ p o
  unfold k0_pay3 Spec.layer
  exact congrArg₂ (· + ·) (congrArg₂ (· + ·) e15 e18) e22

/-! ## The second store's value -/

/-- The gate before its bias, at row p, gate g. -/
theorem pay4_apply (v0 : FVec Ideal S10000x15 .f32) (v12 : FVec Ideal S10000x128 .f32) (v25 : FVec Ideal S128x3 .f32)
    (v28 : FVec Ideal S3x3 .f32) (p : Fin 10000) (g : Fin 3) :
    k0_pay4 (F := Ideal) v0 v12 v25 v28 (ix2 p g)
      = ∑ k : Fin 128, v12 (ix2 p k) * v25 (ix2 k g) + ∑ j : Fin 3, Spec.segSum v0 p j * v28 (ix2 j g) := by
  have e27 : matmul dot_S10000x128_S128x3_S10000x3_1_0_0_1_n_n none v12 (shapeCast S128x3 v25 shapeCasts_S128x3_S128x3)
      (constant (F := Ideal) S10000x3 .f32 0x00000000#32) (ix2 p g) = ∑ k : Fin 128, v12 (ix2 p k) * v25 (ix2 k g) := by
    rw [shapeCast_self]
    exact matmul_zero_ix2 _ rfl rfl rfl rfl d3_l0 d3_r1 none v12 v25 p g
  have e30 : matmul dot_S10000x3_S3x3_S10000x3_1_0_0_1_n_n none (k0_pay2 (F := Ideal) v0) (shapeCast S3x3 v28 shapeCasts_S3x3_S3x3)
      (constant (F := Ideal) S10000x3 .f32 0x00000000#32) (ix2 p g) = ∑ j : Fin 3, Spec.segSum v0 p j * v28 (ix2 j g) := by
    rw [shapeCast_self]
    refine (matmul_zero_ix2 _ rfl rfl rfl rfl d4_l0 d4_r1 none (k0_pay2 (F := Ideal) v0) v28 p g).trans ?_
    exact Finset.sum_congr rfl fun j _ => by rw [pay2_apply]
  unfold k0_pay4
  exact congrArg₂ (· + ·) e27 e30

/-- The gate with its bias, at row p, gate g. -/
theorem gate_bias_apply (v31 : FVec Ideal S10000x3 .f32) (v32 : FVec Ideal S1x3 .f32) (p : Fin 10000) (g : Fin 3) :
    addf v31 (broadcastTo S10000x3 (shapeCast S1x3 v32 shapeCasts_S1x3_S1x3) broadcasts_S1x3_S10000x3) (ix2 p g)
      = v31 (ix2 p g) + v32 (ix2 (0 : Fin 1) g) := by
  have e : broadcastTo S10000x3 (shapeCast S1x3 v32 shapeCasts_S1x3_S1x3) broadcasts_S1x3_S10000x3 (ix2 p g)
      = v32 (ix2 (0 : Fin 1) g) := by
    rw [shapeCast_self]
    exact broadcastTo_1b_ab_apply v32 _ p g
  exact congrArg (v31 (ix2 p g) + ·) e

/-- A gate column repeated over w columns reads, at (p, c'), the gate at (p, g). -/
theorem rep_apply {w : Nat} (v35 : FVec Ideal S10000x3 .f32) (g : Nat) (hg : g < 3)
    (hs : S10000x3.Slices ![0, g] S10000x1) (hb : S10000x1.Broadcasts ⟨2, ![10000, w]⟩) (p : Fin 10000) (c' : Fin w) :
    broadcastTo ⟨2, ![10000, w]⟩ (shapeCast S10000x1 (extractStridedSlice S10000x1 ![0, g] v35 hs) shapeCasts_S10000x1_S10000x1) hb (ix2 p c')
      = v35 (ix2 p (⟨g, hg⟩ : Fin 3)) := by
  rw [shapeCast_self]
  refine (broadcastTo_a1_ab_apply _ hb p c').trans ?_
  exact slice2_axis1_apply g v35 hs p (0 : Fin 1) (⟨g, hg⟩ : Fin 3) rfl

/-- The second store's value at row p, column c: the gate (with bias) of the column's segment times the feature. -/
theorem pay1_apply (v0 : FVec Ideal S10000x15 .f32) (v31 : FVec Ideal S10000x3 .f32) (v32 : FVec Ideal S1x3 .f32)
    (p : Fin 10000) (c : Fin 15) :
    k0_pay1 (F := Ideal) v0 v31 v32 (ix2 p c)
      = (v31 (ix2 p (Spec.colSeg c)) + v32 (ix2 (0 : Fin 1) (Spec.colSeg c))) * v0 (ix2 p c) := by
  unfold k0_pay1
  refine congrArg (· * v0 (ix2 p c)) ?_
  by_cases h3 : c.val < 3
  · have hseg : Spec.colSeg c = (⟨0, by omega⟩ : Fin 3) := by unfold Spec.colSeg; rw [if_pos h3]; rfl
    rw [hseg]
    refine (concat3_apply_0 _ _ _ _ p c (⟨c.val, h3⟩ : Fin 3) rfl).trans ?_
    refine (rep_apply _ 0 (by omega) _ _ p _).trans ?_
    exact gate_bias_apply v31 v32 p _
  · by_cases h8 : c.val < 8
    · have hseg : Spec.colSeg c = (⟨1, by omega⟩ : Fin 3) := by unfold Spec.colSeg; rw [if_neg h3, if_pos h8]; rfl
      rw [hseg]
      refine (concat3_apply_1 _ _ _ _ p c (⟨c.val - 3, by omega⟩ : Fin 5) (by show 3 + (c.val - 3) = c.val; omega)).trans ?_
      refine (rep_apply _ 1 (by omega) _ _ p _).trans ?_
      exact gate_bias_apply v31 v32 p _
    · have hseg : Spec.colSeg c = (⟨2, by omega⟩ : Fin 3) := by unfold Spec.colSeg; rw [if_neg h3, if_neg h8]; rfl
      rw [hseg]
      refine (concat3_apply_2 _ _ _ _ p c (⟨c.val - 8, by omega⟩ : Fin 7) (by show 3 + 5 + (c.val - 8) = c.val; omega)).trans ?_
      refine (rep_apply _ 2 (by omega) _ _ p _).trans ?_
      exact gate_bias_apply v31 v32 p _

/-- The second store's value over the loaded blocks: the gated output of the specification. -/
theorem pay14_apply (v0 : FVec Ideal S10000x15 .f32) (v12 : FVec Ideal S10000x128 .f32) (v25 : FVec Ideal S128x3 .f32)
    (v28 : FVec Ideal S3x3 .f32) (v32 : FVec Ideal S1x3 .f32) (p : Fin 10000) (c : Fin 15) :
    k0_pay1 (F := Ideal) v0 (k0_pay4 (F := Ideal) v0 v12 v25 v28) v32 (ix2 p c)
      = Spec.gated v12 v0 (fun k g => v25 (ix2 k g)) (fun j g => v28 (ix2 j g)) (fun g => v32 (ix2 (0 : Fin 1) g)) p c := by
  rw [pay1_apply, pay4_apply]
  rfl

end Cert.KernelIdeal.Pay

end
-- ==== Proof.KernelValue.lean ====
/-
  From blocks to arrays: what the kernel's two result arrays hold after the run, as functions of the four arguments.

  The grid has 100 points; point t stages rows 10000·t … 10000·t + 9999 of the two feature arrays and of the two
  results, and the whole of six small arrays the host prepared before the launch: the transposed weight matrix cut
  into its 128 × 128, 128 × 3, 3 × 128 and 3 × 3 corners, and the bias cut into its first 128 and last 3 entries (each
  viewed as one row). So the weight from input k to output o that a point reads is `W (o, k)`, with the last three
  inputs and outputs at offset 128. What a point writes back is its block of rows of the specification's functions
  `Spec.G8` and `Spec.G9` (the body's arithmetic read at an entry, and the specification reading only the row at
  hand); the 100 blocks cover every row (row r is in block r / 10000), so the arrays end holding `G8` and `G9`.
-/
import proofs.«125287_j13889924235382_2_alg».proof.Proof.Gen.KernelIdeal.Value
import proofs.«125287_j13889924235382_2_alg».proof.Proof.KernelPay
import Idealize.ShloMosaic.Lib.StableHlo.Run
import Idealize.ShloMosaic.Lib.ValueLayout

noncomputable section

open scoped BigOperators

namespace Cert.KernelIdeal.Arr

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The index maps, decided over the 100 points -/

theorem hz : (![0, 0] : Fin 2 → Nat) = fun _ => 0 := funext fun a => by fin_cases a <;> rfl

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)

/-! ## The arrays the host prepared, read at an entry -/

/-- The 128 × 128 corner: the weight from input k to output o. -/
theorem hv1 (c : Dev nD) (k : Fin 128) (o : Fin 128) :
    (V m c main_v1 : FVec Ideal S128x128 .f32) (ix2 k o)
      = (m ((c : Thread nD τ).loc main_arg2) : FVec Ideal S131x131 .f32) (ix2 (⟨o.val, by omega⟩ : Fin 131) (⟨k.val, by omega⟩ : Fin 131)) := by
  have e : (V m c main_v1 : FVec Ideal S128x128 .f32) = extractStridedSlice S128x128 ![0, 0]
      (transpose S131x131 [1, 0] (m ((c : Thread nD τ).loc main_arg2)) transposes_S131x131_S131x131_1_0) slices_S131x131_S128x128_0_0 := by
    dsimp only [V, hostOps0]; after_results
  rw [e]
  refine (extractStridedSlice_apply _ _ _ (ix2 k o) (ix2 (⟨k.val, by omega⟩ : Fin 131) (⟨o.val, by omega⟩ : Fin 131)) fun a => ?_).trans ?_
  · match a with
    | ⟨0, _⟩ => exact (Nat.zero_add _).symm
    | ⟨1, _⟩ => exact (Nat.zero_add _).symm
  exact transpose_ix2_apply _ _ _ _

/-- The 128 × 3 corner: the weight from input k to output 128 + g. -/
theorem hv2 (c : Dev nD) (k : Fin 128) (g : Fin 3) :
    (V m c main_v2 : FVec Ideal S128x3 .f32) (ix2 k g)
      = (m ((c : Thread nD τ).loc main_arg2) : FVec Ideal S131x131 .f32) (ix2 (⟨128 + g.val, by omega⟩ : Fin 131) (⟨k.val, by omega⟩ : Fin 131)) := by
  have e : (V m c main_v2 : FVec Ideal S128x3 .f32) = extractStridedSlice S128x3 ![0, 128]
      (transpose S131x131 [1, 0] (m ((c : Thread nD τ).loc main_arg2)) transposes_S131x131_S131x131_1_0) slices_S131x131_S128x3_0_128 := by
    dsimp only [V, hostOps0]; after_results
  rw [e]
  refine (extractStridedSlice_apply _ _ _ (ix2 k g) (ix2 (⟨k.val, by omega⟩ : Fin 131) (⟨128 + g.val, by omega⟩ : Fin 131)) fun a => ?_).trans ?_
  · match a with
    | ⟨0, _⟩ => exact (Nat.zero_add _).symm
    | ⟨1, _⟩ => rfl
  exact transpose_ix2_apply _ _ _ _

/-- The 3 × 128 corner: the weight from input 128 + j to output o. -/
theorem hv3 (c : Dev nD) (j : Fin 3) (o : Fin 128) :
    (V m c main_v3 : FVec Ideal S3x128 .f32) (ix2 j o)
      = (m ((c : Thread nD τ).loc main_arg2) : FVec Ideal S131x131 .f32) (ix2 (⟨o.val, by omega⟩ : Fin 131) (⟨128 + j.val, by omega⟩ : Fin 131)) := by
  have e : (V m c main_v3 : FVec Ideal S3x128 .f32) = extractStridedSlice S3x128 ![128, 0]
      (transpose S131x131 [1, 0] (m ((c : Thread nD τ).loc main_arg2)) transposes_S131x131_S131x131_1_0) slices_S131x131_S3x128_128_0 := by
    dsimp only [V, hostOps0]; after_results
  rw [e]
  refine (extractStridedSlice_apply _ _ _ (ix2 j o) (ix2 (⟨128 + j.val, by omega⟩ : Fin 131) (⟨o.val, by omega⟩ : Fin 131)) fun a => ?_).trans ?_
  · match a with
    | ⟨0, _⟩ => rfl
    | ⟨1, _⟩ => exact (Nat.zero_add _).symm
  exact transpose_ix2_apply _ _ _ _

/-- The 3 × 3 corner: the weight from input 128 + j to output 128 + g. -/
theorem hv4 (c : Dev nD) (j : Fin 3) (g : Fin 3) :
    (V m c main_v4 : FVec Ideal S3x3 .f32) (ix2 j g)
      = (m ((c : Thread nD τ).loc main_arg2) : FVec Ideal S131x131 .f32) (ix2 (⟨128 + g.val, by omega⟩ : Fin 131) (⟨128 + j.val, by omega⟩ : Fin 131)) := by
  have e : (V m c main_v4 : FVec Ideal S3x3 .f32) = extractStridedSlice S3x3 ![128, 128]
      (transpose S131x131 [1, 0] (m ((c : Thread nD τ).loc main_arg2)) transposes_S131x131_S131x131_1_0) slices_S131x131_S3x3_128_128 := by
    dsimp only [V, hostOps0]; after_results
  rw [e]
  refine (extractStridedSlice_apply _ _ _ (ix2 j g) (ix2 (⟨128 + j.val, by omega⟩ : Fin 131) (⟨128 + g.val, by omega⟩ : Fin 131)) fun a => ?_).trans ?_
  · match a with
    | ⟨0, _⟩ => rfl
    | ⟨1, _⟩ => rfl
  exact transpose_ix2_apply _ _ _ _

/-- The first 128 bias entries as one row. -/
theorem hv6 (c : Dev nD) (o : Fin 128) :
    (V m c main_v6 : FVec Ideal S1x128 .f32) (ix2 (0 : Fin 1) o)
      = (m ((c : Thread nD τ).loc main_arg3) : FVec Ideal S131 .f32) (ix1 (⟨o.val, by omega⟩ : Fin 131)) := by
  have e : (V m c main_v6 : FVec Ideal S1x128 .f32) = shapeCast S1x128
      (extractStridedSlice S128 ![0] (m ((c : Thread nD τ).loc main_arg3)) slices_S131_S128_0) shapeCasts_S128_S1x128 := by
    dsimp only [V, hostOps0]; after_results; rfl
  rw [e]
  refine (shapeCast_a_1a_apply _ _ (0 : Fin 1) o).trans ?_
  exact extractStridedSlice_apply _ _ _ (ix1 o) (ix1 (⟨o.val, by omega⟩ : Fin 131)) fun a => by
    match a with
    | ⟨0, _⟩ => exact (Nat.zero_add _).symm

/-- The last 3 bias entries as one row. -/
theorem hv8 (c : Dev nD) (g : Fin 3) :
    (V m c main_v8 : FVec Ideal S1x3 .f32) (ix2 (0 : Fin 1) g)
      = (m ((c : Thread nD τ).loc main_arg3) : FVec Ideal S131 .f32) (ix1 (⟨128 + g.val, by omega⟩ : Fin 131)) := by
  have e : (V m c main_v8 : FVec Ideal S1x3 .f32) = shapeCast S1x3
      (extractStridedSlice S3 ![128] (m ((c : Thread nD τ).loc main_arg3)) slices_S131_S3_128) shapeCasts_S3_S1x3 := by
    dsimp only [V, hostOps0]; after_results; rfl
  rw [e]
  refine (shapeCast_a_1a_apply _ _ (0 : Fin 1) g).trans ?_
  exact extractStridedSlice_apply _ _ _ (ix1 g) (ix1 (⟨128 + g.val, by omega⟩ : Fin 131)) fun a => by
    match a with
    | ⟨0, _⟩ => rfl

/-! ## Each window's block at a point, read at an entry -/

/-- Point t's block of the invariant features holds rows 10000·t + p. -/
theorem blk0 (c : Dev nD) (t : Fin cfg0.N) (p : Fin 10000) (k : Fin 128) (n : Fin 1000000) (hn : n.val = t.val * 10000 + p.val) :
    (iblk m c 0 t : Vec Ideal S10000x128 .f32) (ix2 p k) = (m ((c : Thread nD τ).loc main_arg0) : FVec Ideal S1000000x128 .f32) (ix2 n k) := by
  show V m c main_arg0 (((cfg0.win 0).blk t).view.emb (ix2 p k)) = _
  rw [V_main_arg0]
  refine congrArg _ (funext fun a => Fin.ext ?_)
  obtain ⟨e0, e1⟩ := idx0 t
  match a with
  | ⟨0, _⟩ => show win0_0.index t (0 : Fin 2) * 10000 + 1 * p.val = n.val; omega
  | ⟨1, _⟩ => show win0_0.index t (1 : Fin 2) * 128 + 1 * k.val = k.val; omega

/-- Point t's block of the equivariant features holds rows 10000·t + p. -/
theorem blk1 (c : Dev nD) (t : Fin cfg0.N) (p : Fin 10000) (q : Fin 15) (n : Fin 1000000) (hn : n.val = t.val * 10000 + p.val) :
    (iblk m c 1 t : Vec Ideal S10000x15 .f32) (ix2 p q) = (m ((c : Thread nD τ).loc main_arg1) : FVec Ideal S1000000x15 .f32) (ix2 n q) := by
  show V m c main_arg1 (((cfg0.win 1).blk t).view.emb (ix2 p q)) = _
  rw [V_main_arg1]
  refine congrArg _ (funext fun a => Fin.ext ?_)
  obtain ⟨e0, e1⟩ := idx1 t
  match a with
  | ⟨0, _⟩ => show win0_1.index t (0 : Fin 2) * 10000 + 1 * p.val = n.val; omega
  | ⟨1, _⟩ => show win0_1.index t (1 : Fin 2) * 15 + 1 * q.val = q.val; omega

/-- The six small arrays are staged whole at every point. -/
theorem blk2 (c : Dev nD) (t : Fin cfg0.N) (k : Fin 128) (o : Fin 128) :
    (iblk m c 2 t : Vec Ideal S128x128 .f32) (ix2 k o) = (V m c main_v1 : FVec Ideal S128x128 .f32) (ix2 k o) := by
  show V m c main_v1 (((cfg0.win 2).blk t).view.emb (ix2 k o)) = _
  refine congrArg _ (funext fun a => Fin.ext ?_)
  obtain ⟨e0, e1⟩ := idx2 t
  match a with
  | ⟨0, _⟩ => show win0_2.index t (0 : Fin 2) * 128 + 1 * k.val = k.val; omega
  | ⟨1, _⟩ => show win0_2.index t (1 : Fin 2) * 128 + 1 * o.val = o.val; omega
theorem blk3 (c : Dev nD) (t : Fin cfg0.N) (k : Fin 128) (g : Fin 3) :
    (iblk m c 3 t : Vec Ideal S128x3 .f32) (ix2 k g) = (V m c main_v2 : FVec Ideal S128x3 .f32) (ix2 k g) := by
  show V m c main_v2 (((cfg0.win 3).blk t).view.emb (ix2 k g)) = _
  refine congrArg _ (funext fun a => Fin.ext ?_)
  obtain ⟨e0, e1⟩ := idx3 t
  match a with
  | ⟨0, _⟩ => show win0_3.index t (0 : Fin 2) * 128 + 1 * k.val = k.val; omega
  | ⟨1, _⟩ => show win0_3.index t (1 : Fin 2) * 3 + 1 * g.val = g.val; omega
theorem blk4 (c : Dev nD) (t : Fin cfg0.N) (j : Fin 3) (o : Fin 128) :
    (iblk m c 4 t : Vec Ideal S3x128 .f32) (ix2 j o) = (V m c main_v3 : FVec Ideal S3x128 .f32) (ix2 j o) := by
  show V m c main_v3 (((cfg0.win 4).blk t).view.emb (ix2 j o)) = _
  refine congrArg _ (funext fun a => Fin.ext ?_)
  obtain ⟨e0, e1⟩ := idx4 t
  match a with
  | ⟨0, _⟩ => show win0_4.index t (0 : Fin 2) * 3 + 1 * j.val = j.val; omega
  | ⟨1, _⟩ => show win0_4.index t (1 : Fin 2) * 128 + 1 * o.val = o.val; omega
theorem blk5 (c : Dev nD) (t : Fin cfg0.N) (j : Fin 3) (g : Fin 3) :
    (iblk m c 5 t : Vec Ideal S3x3 .f32) (ix2 j g) = (V m c main_v4 : FVec Ideal S3x3 .f32) (ix2 j g) := by
  show V m c main_v4 (((cfg0.win 5).blk t).view.emb (ix2 j g)) = _
  refine congrArg _ (funext fun a => Fin.ext ?_)
  obtain ⟨e0, e1⟩ := idx5 t
  match a with
  | ⟨0, _⟩ => show win0_5.index t (0 : Fin 2) * 3 + 1 * j.val = j.val; omega
  | ⟨1, _⟩ => show win0_5.index t (1 : Fin 2) * 3 + 1 * g.val = g.val; omega
theorem blk6 (c : Dev nD) (t : Fin cfg0.N) (o : Fin 128) :
    (iblk m c 6 t : Vec Ideal S1x128 .f32) (ix2 (0 : Fin 1) o) = (V m c main_v6 : FVec Ideal S1x128 .f32) (ix2 (0 : Fin 1) o) := by
  show V m c main_v6 (((cfg0.win 6).blk t).view.emb (ix2 (0 : Fin 1) o)) = _
  refine congrArg _ (funext fun a => Fin.ext ?_)
  obtain ⟨e0, e1⟩ := idx6 t
  match a with
  | ⟨0, _⟩ => show win0_6.index t (0 : Fin 2) * 1 + 1 * 0 = 0; omega
  | ⟨1, _⟩ => show win0_6.index t (1 : Fin 2) * 128 + 1 * o.val = o.val; omega
theorem blk7 (c : Dev nD) (t : Fin cfg0.N) (g : Fin 3) :
    (iblk m c 7 t : Vec Ideal S1x3 .f32) (ix2 (0 : Fin 1) g) = (V m c main_v8 : FVec Ideal S1x3 .f32) (ix2 (0 : Fin 1) g) := by
  show V m c main_v8 (((cfg0.win 7).blk t).view.emb (ix2 (0 : Fin 1) g)) = _
  refine congrArg _ (funext fun a => Fin.ext ?_)
  obtain ⟨e0, e1⟩ := idx7 t
  match a with
  | ⟨0, _⟩ => show win0_7.index t (0 : Fin 2) * 1 + 1 * 0 = 0; omega
  | ⟨1, _⟩ => show win0_7.index t (1 : Fin 2) * 3 + 1 * g.val = g.val; omega

/-! ## What a point writes back, and the arrays after the run -/

theorem lt100 (t : Fin cfg0.N) : t.val < 100 := lt_of_lt_of_eq t.isLt N_0

/-- Point t writes back, to the first result, its block of rows of `Spec.G8` of the four arguments. -/
theorem flushed8_eq (c : Dev nD) (t : Fin cfg0.N) :
    (dats m 0 c).flushed 8 t = ((cfg0.win 8).blk t).view.read (Elt Ideal)
      (Spec.G8 (m ((c : Thread nD τ).loc main_arg0)) (m ((c : Thread nD τ).loc main_arg1)) (m ((c : Thread nD τ).loc main_arg2)) (m ((c : Thread nD τ).loc main_arg3))) := by
  rw [Value.flushed8]
  unfold out0_8
  rw [View.canon_unit_zero hz]
  simp only [View.ld_unit_zero (S := S10000x15) hz, View.ld_unit_zero (S := S10000x128) hz, View.ld_unit_zero (S := S128x128) hz,
    View.ld_unit_zero (S := S3x128) hz, View.ld_unit_zero (S := S1x128) hz]
  funext y
  obtain ⟨p, o, rfl⟩ : ∃ (p : Fin 10000) (o : Fin 128), y = ix2 p o := ⟨y 0, y 1, eq_ix2 y⟩
  have ht := lt100 t
  obtain ⟨e0, e1⟩ := idx8 t
  have hemb : ((cfg0.win 8).blk t).view.emb (ix2 p o) = ix2 (⟨t.val * 10000 + p.val, by omega⟩ : Fin 1000000) o :=
    funext fun a => Fin.ext (by
      match a with
      | ⟨0, _⟩ => show win0_8.index t (0 : Fin 2) * 10000 + 1 * p.val = t.val * 10000 + p.val; omega
      | ⟨1, _⟩ => show win0_8.index t (1 : Fin 2) * 128 + 1 * o.val = o.val; omega)
  show k0_pay3 (F := Ideal) (iblk m c 1 t) (iblk m c 0 t) (iblk m c 2 t) (iblk m c 4 t) (iblk m c 6 t) (ix2 p o)
    = Spec.G8 _ _ _ _ (((cfg0.win 8).blk t).view.emb (ix2 p o))
  rw [hemb]
  refine (Pay.pay3_apply (iblk m c 1 t) (iblk m c 0 t) (iblk m c 2 t) (iblk m c 4 t) (iblk m c 6 t) p o).trans ?_
  unfold Spec.G8
  exact Spec.layer_congr _ _ _ _ _ _ _ _ _ _ p _ o _ (fun k => blk0 m c t p k _ rfl) (fun q => blk1 m c t p q _ rfl)
    (fun k => (blk2 m c t k o).trans (hv1 m c k o)) (fun j => (blk4 m c t j o).trans (hv3 m c j o))
    ((blk6 m c t o).trans (hv6 m c o))

/-- Point t writes back, to the second result, its block of rows of `Spec.G9` of the four arguments. -/
theorem flushed9_eq (c : Dev nD) (t : Fin cfg0.N) :
    (dats m 0 c).flushed 9 t = ((cfg0.win 9).blk t).view.read (Elt Ideal)
      (Spec.G9 (m ((c : Thread nD τ).loc main_arg0)) (m ((c : Thread nD τ).loc main_arg1)) (m ((c : Thread nD τ).loc main_arg2)) (m ((c : Thread nD τ).loc main_arg3))) := by
  rw [Value.flushed9]
  unfold out0_9
  rw [View.canon_unit_zero hz]
  simp only [View.ld_unit_zero (S := S10000x15) hz, View.ld_unit_zero (S := S10000x128) hz, View.ld_unit_zero (S := S128x3) hz,
    View.ld_unit_zero (S := S3x3) hz, View.ld_unit_zero (S := S1x3) hz]
  funext y
  obtain ⟨p, q, rfl⟩ : ∃ (p : Fin 10000) (q : Fin 15), y = ix2 p q := ⟨y 0, y 1, eq_ix2 y⟩
  have ht := lt100 t
  obtain ⟨e0, e1⟩ := idx9 t
  have hemb : ((cfg0.win 9).blk t).view.emb (ix2 p q) = ix2 (⟨t.val * 10000 + p.val, by omega⟩ : Fin 1000000) q :=
    funext fun a => Fin.ext (by
      match a with
      | ⟨0, _⟩ => show win0_9.index t (0 : Fin 2) * 10000 + 1 * p.val = t.val * 10000 + p.val; omega
      | ⟨1, _⟩ => show win0_9.index t (1 : Fin 2) * 15 + 1 * q.val = q.val; omega)
  show k0_pay1 (F := Ideal) (iblk m c 1 t) (k0_pay4 (F := Ideal) (iblk m c 1 t) (iblk m c 0 t) (iblk m c 3 t) (iblk m c 5 t)) (iblk m c 7 t) (ix2 p q)
    = Spec.G9 _ _ _ _ (((cfg0.win 9).blk t).view.emb (ix2 p q))
  rw [hemb]
  refine (Pay.pay14_apply (iblk m c 1 t) (iblk m c 0 t) (iblk m c 3 t) (iblk m c 5 t) (iblk m c 7 t) p q).trans ?_
  unfold Spec.G9
  exact Spec.gated_congr _ _ _ _ _ _ _ _ _ _ p _ (fun k => blk0 m c t p k _ rfl) (fun q' => blk1 m c t p q' _ rfl)
    (fun k g => (blk3 m c t k g).trans (hv2 m c k g)) (fun j g => (blk5 m c t j g).trans (hv4 m c j g))
    (fun g => (blk7 m c t g).trans (hv8 m c g)) q

/-- An index is in point t's block of the first result iff each coordinate is in the block's range. -/
theorem mem_blk8 (t : Fin cfg0.N) (i : S1000000x128.Idx) :
    i ∈ ((cfg0.win 8).blk t).view.set ↔ ∀ a : Fin 2, win0_8.index t a * S10000x128.size a ≤ (i a).val ∧ (i a).val < win0_8.index t a * S10000x128.size a + S10000x128.size a := by
  show i ∈ ((View.whole main_v9_0).slice (win0_8.rect t)).set ↔ _
  rw [View.set_slice_whole, Rect.mem_set_unit]
  exact Iff.rfl

theorem mem_blk9 (t : Fin cfg0.N) (i : S1000000x15.Idx) :
    i ∈ ((cfg0.win 9).blk t).view.set ↔ ∀ a : Fin 2, win0_9.index t a * S10000x15.size a ≤ (i a).val ∧ (i a).val < win0_9.index t a * S10000x15.size a + S10000x15.size a := by
  show i ∈ ((View.whole main_v9_1).slice (win0_9.rect t)).set ↔ _
  rw [View.set_slice_whole, Rect.mem_set_unit]
  exact Iff.rfl

/-- Row r of the first result is in the block of point r / 10000. -/
theorem cover8 (i : S1000000x128.Idx) : ∃ t : Fin cfg0.N, (cfg0.win 8).flush t = true ∧ i ∈ ((cfg0.win 8).blk t).view.set := by
  have hi0 : (i 0).val < 1000000 := idx2_lt0 i
  have hi1 : (i 1).val < 128 := idx2_lt1 i
  have hN : (i 0).val / 10000 < cfg0.N := by rw [show cfg0.N = 100 from N_0]; omega
  refine ⟨⟨(i 0).val / 10000, hN⟩, flush0_8 _, ?_⟩
  rw [mem_blk8]
  obtain ⟨e0, e1⟩ := idx8 ⟨(i 0).val / 10000, hN⟩
  intro a
  match a with
  | ⟨0, _⟩ =>
    show win0_8.index ⟨(i 0).val / 10000, hN⟩ (0 : Fin 2) * 10000 ≤ (i 0).val ∧ (i 0).val < win0_8.index ⟨(i 0).val / 10000, hN⟩ (0 : Fin 2) * 10000 + 10000
    rw [e0]; show (i 0).val / 10000 * 10000 ≤ (i 0).val ∧ (i 0).val < (i 0).val / 10000 * 10000 + 10000; omega
  | ⟨1, _⟩ =>
    show win0_8.index ⟨(i 0).val / 10000, hN⟩ (1 : Fin 2) * 128 ≤ (i 1).val ∧ (i 1).val < win0_8.index ⟨(i 0).val / 10000, hN⟩ (1 : Fin 2) * 128 + 128
    rw [e1]; omega

/-- Row r of the second result is in the block of point r / 10000. -/
theorem cover9 (i : S1000000x15.Idx) : ∃ t : Fin cfg0.N, (cfg0.win 9).flush t = true ∧ i ∈ ((cfg0.win 9).blk t).view.set := by
  have hi0 : (i 0).val < 1000000 := idx2_lt0 i
  have hi1 : (i 1).val < 15 := idx2_lt1 i
  have hN : (i 0).val / 10000 < cfg0.N := by rw [show cfg0.N = 100 from N_0]; omega
  refine ⟨⟨(i 0).val / 10000, hN⟩, flush0_9 _, ?_⟩
  rw [mem_blk9]
  obtain ⟨e0, e1⟩ := idx9 ⟨(i 0).val / 10000, hN⟩
  intro a
  match a with
  | ⟨0, _⟩ =>
    show win0_9.index ⟨(i 0).val / 10000, hN⟩ (0 : Fin 2) * 10000 ≤ (i 0).val ∧ (i 0).val < win0_9.index ⟨(i 0).val / 10000, hN⟩ (0 : Fin 2) * 10000 + 10000
    rw [e0]; show (i 0).val / 10000 * 10000 ≤ (i 0).val ∧ (i 0).val < (i 0).val / 10000 * 10000 + 10000; omega
  | ⟨1, _⟩ =>
    show win0_9.index ⟨(i 0).val / 10000, hN⟩ (1 : Fin 2) * 15 ≤ (i 1).val ∧ (i 1).val < win0_9.index ⟨(i 0).val / 10000, hN⟩ (1 : Fin 2) * 15 + 15
    rw [e1]; omega

/-- The first result array after the run. -/
theorem final8 (c : Dev nD) : (dats m 0 c).arrAt 8 cfg0.N
    = Spec.G8 (m ((c : Thread nD τ).loc main_arg0)) (m ((c : Thread nD τ).loc main_arg1)) (m ((c : Thread nD τ).loc main_arg2)) (m ((c : Thread nD τ).loc main_arg3)) :=
  (dats m 0 c).arrAt_eq_of_cover 8 _ (fun t _ => flushed8_eq m c t) cover8

/-- The second result array after the run. -/
theorem final9 (c : Dev nD) : (dats m 0 c).arrAt 9 cfg0.N
    = Spec.G9 (m ((c : Thread nD τ).loc main_arg0)) (m ((c : Thread nD τ).loc main_arg1)) (m ((c : Thread nD τ).loc main_arg2)) (m ((c : Thread nD τ).loc main_arg3)) :=
  (dats m 0 c).arrAt_eq_of_cover 9 _ (fun t _ => flushed9_eq m c t) cover9

/-- The kernel's run: every weakly fair execution ends with the two results at `G8` and `G9` of the arguments, the
    arguments unchanged. -/
theorem run : θ_run defs (onTc (τ := τ) (main (F := Ideal))) ⟨m, fun _ => 0, ρ⟩ fun r => ∀ c : Dev nD,
      r.2.mem ((c : Thread nD τ).loc main_v9_0) = Spec.G8 (m ((c : Thread nD τ).loc main_arg0)) (m ((c : Thread nD τ).loc main_arg1)) (m ((c : Thread nD τ).loc main_arg2)) (m ((c : Thread nD τ).loc main_arg3))
      ∧ r.2.mem ((c : Thread nD τ).loc main_v9_1) = Spec.G9 (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final8 m c), (h c).2.1.trans (final9 m c), (h c).2.2⟩)
    (Value.run_blocks m ρ)

end Cert.KernelIdeal.Arr

end
-- ==== Proof.RefTerm.lean ====
/-
  The reference program's two results as pure terms of its four argument arrays, one definition per stage.
  Float stages: the squares of the fifteen columns of `ev`, their three segment sums (columns 0–2, 3–7, 8–14),
  the 131-wide row `[inv | segment sums]`, the linear layer `row · Wᵀ + b`, its first 128 columns (the first
  result) and its last three (the gate). Integer stages, all over literals: the repeat counts `[3, 5, 7]` rolled
  to `[7, 3, 5]`, their first entry overwritten by zero, the running sum `[0, 3, 8]` (the segment starts), a one
  scattered at every start into fifteen zeros, the running sum of those marks minus one (the segment number of
  each of the fifteen columns), the same wrapped and broadcast to a column of start indices, and the mask saying
  every start index lies in `[0, 2]`. The second result gathers the gate's column named by the start index of
  each of the fifteen columns (a NaN filler where the mask fails) and multiplies by `ev`.
-/
import proofs.«125287_j13889924235382_2_alg».proof.ReferenceIdeal

noncomputable section

namespace Cert.ReferenceIdeal.RefTerm

open Idealize.ShloMosaic Cert.ReferenceIdeal Cert.ReferenceIdeal.Facts₀

variable {F : FTy → Type} [FloatOps F] [Facts]

/-! ## Float stages -/

/-- The squares `ev · ev`. -/
def sq (ev : FVec F S1000000x15 .f32) : FVec F S1000000x15 .f32 := mulf ev ev

/-- Sum of the squares over columns 0–2. -/
def seg0 (ev : FVec F S1000000x15 .f32) : FVec F S1000000 .f32 :=
  Host.reduceAdd (extractStridedSlice S1000000x3 ![0, 0] (sq ev) slices_S1000000x15_S1000000x3_0_0)
    (constant S_ .f32 0x00000000#32) reducesTo_S1000000x3_S1000000_d1 h_S_

/-- Sum of the squares over columns 3–7. -/
def seg1 (ev : FVec F S1000000x15 .f32) : FVec F S1000000 .f32 :=
  Host.reduceAdd (extractStridedSlice S1000000x5 ![0, 3] (sq ev) slices_S1000000x15_S1000000x5_0_3)
    (constant S_ .f32 0x00000000#32) reducesTo_S1000000x5_S1000000_d1 h_S_

/-- Sum of the squares over columns 8–14. -/
def seg2 (ev : FVec F S1000000x15 .f32) : FVec F S1000000 .f32 :=
  Host.reduceAdd (extractStridedSlice S1000000x7 ![0, 8] (sq ev) slices_S1000000x15_S1000000x7_0_8)
    (constant S_ .f32 0x00000000#32) reducesTo_S1000000x7_S1000000_d1 h_S_

/-- The three segment sums side by side. -/
def evInv (ev : FVec F S1000000x15 .f32) : FVec F S1000000x3 .f32 :=
  concatenate S1000000x3 1
    [⟨S1000000x1, broadcastInDim S1000000x1 ![0] bcast_S1000000_S1000000x1_0 (seg0 ev)⟩,
     ⟨S1000000x1, broadcastInDim S1000000x1 ![0] bcast_S1000000_S1000000x1_0 (seg1 ev)⟩,
     ⟨S1000000x1, broadcastInDim S1000000x1 ![0] bcast_S1000000_S1000000x1_0 (seg2 ev)⟩]
    concatenates_S1000000x1_S1000000x1_S1000000x1_S1000000x3_d1

/-- The 131-wide row `[inv | segment sums]`. -/
def cat (inv : FVec F S1000000x128 .f32) (ev : FVec F S1000000x15 .f32) : FVec F S1000000x131 .f32 :=
  concatenate S1000000x131 1 [⟨S1000000x128, inv⟩, ⟨S1000000x3, evInv ev⟩]
    concatenates_S1000000x128_S1000000x3_S1000000x131_d1

/-- The linear layer `row · Wᵀ + b`. -/
def lin (inv : FVec F S1000000x128 .f32) (ev : FVec F S1000000x15 .f32) (W : FVec F S131x131 .f32)
    (b : FVec F S131 .f32) : FVec F S1000000x131 .f32 :=
  addf
    (Host.dotGeneral dot_S1000000x131_S131x131_S1000000x131_1_0_0_1_n_n none (cat inv ev)
      (transpose S131x131 [1, 0] W transposes_S131x131_S131x131_1_0))
    (broadcastInDim S1000000x131 ![0, 1] bcast_S1x131_S1000000x131_0_1
      (broadcastInDim S1x131 ![1] bcast_S131_S1x131_1 b))

/-- The first result: the layer's first 128 columns. -/
def out17 (inv : FVec F S1000000x128 .f32) (ev : FVec F S1000000x15 .f32) (W : FVec F S131x131 .f32)
    (b : FVec F S131 .f32) : FVec F S1000000x128 .f32 :=
  extractStridedSlice S1000000x128 ![0, 0] (lin inv ev W b) slices_S1000000x131_S1000000x128_0_0

/-- The gate: the layer's last three columns. -/
def gate (inv : FVec F S1000000x128 .f32) (ev : FVec F S1000000x15 .f32) (W : FVec F S131x131 .f32)
    (b : FVec F S131 .f32) : FVec F S1000000x3 .f32 :=
  extractStridedSlice S1000000x3 ![0, 128] (lin inv ev W b) slices_S1000000x131_S1000000x3_0_128

/-! ## Integer stages (literals only) -/

/-- The repeat counts `[3, 5, 7]`. -/
def counts : IVec S3 32 := fun i => lit0 (S3.rowMajor i)

/-- The counts rolled by one: `[7, 3, 5]`. -/
def rolled : IVec S3 32 :=
  concatenate S3 0 [⟨S1, extractStridedSlice S1 ![2] counts slices_S3_S1_2⟩,
    ⟨S2, extractStridedSlice S2 ![0] counts slices_S3_S2_0⟩] concatenates_S1_S2_S3_d0

/-- The rolled counts with entry 0 set to zero: `[0, 3, 5]`. -/
def exclusive : IVec S3 32 :=
  Host.scatter scatter_S3_S1_S__n_0_0_0 (fun _ b => b) rolled
    (broadcastInDim S1 ![] bcast_S_S1 (constantI S_ 32 0#32)) (constantI S_ 32 0#32)

/-- Their running sum, the segment starts `[0, 3, 8]`. -/
def starts : IVec S3 32 :=
  Host.reduceWindow IntOp.addi ![3] ![1] ![2] ![0] exclusive
    (broadcastInDim S_ ![] bcast_S_S_ (constantI S_ 32 0#32)) reduceWindows_S3_S3_w3s1p2_0 h_S_

/-- The starts with a negative one wrapped by fifteen (none is). -/
def startsWrapped : IVec S3 32 :=
  select (cmpi .slt starts (broadcastInDim S3 ![] bcast_S_S3 (constantI S_ 32 0#32)))
    (addi starts (broadcastInDim S3 ![] bcast_S_S3 (constantI S_ 32 15#32))) starts

/-- A one added at every segment start into fifteen zeros. -/
def marks : IVec S15 32 :=
  Host.scatter scatter_S15_S3x1_S3_n_0_0_1 IntOp.addi
    (broadcastInDim S15 ![] bcast_S_S15 (constantI S_ 32 0#32))
    (broadcastInDim S3x1 ![0] bcast_S3_S3x1_0 startsWrapped)
    (broadcastInDim S3 ![] bcast_S_S3 (constantI S_ 32 1#32))

/-- The running sum of the marks. -/
def marksSum : IVec S15 32 :=
  Host.reduceWindow IntOp.addi ![15] ![1] ![14] ![0] marks
    (broadcastInDim S_ ![] bcast_S_S_ (constantI S_ 32 0#32)) reduceWindows_S15_S15_w15s1p14_0 h_S_

/-- The segment number of each of the fifteen columns: the running sum minus one. -/
def segOf : IVec S15 32 :=
  subi marksSum (broadcastInDim S15 ![] bcast_S_S15 (constantI S_ 32 1#32))

/-- The segment numbers with a negative one wrapped by three (none is). -/
def segWrapped : IVec S15 32 :=
  select (cmpi .slt segOf (broadcastInDim S15 ![] bcast_S_S15 (constantI S_ 32 0#32)))
    (addi segOf (broadcastInDim S15 ![] bcast_S_S15 (constantI S_ 32 3#32))) segOf

/-- The column of start indices the gather reads. -/
def startCol : IVec S15x1 32 := broadcastInDim S15x1 ![0] bcast_S15_S15x1_0 segWrapped

/-- Per column: the start index lies in `[0, 2]`. -/
def inRange : IVec S15 1 :=
  Host.reduce IntOp.andi
    (andi (cmpi .sge startCol (broadcastInDim S15x1 ![] bcast_S_S15x1 (constantI S_ 32 0#32)))
      (cmpi .sle startCol (broadcastInDim S15x1 ![0, 1] bcast_S1x1_S15x1_0_1
        (broadcastInDim S1x1 ![1] bcast_S1_S1x1_1 (constantI S1 32 2#32)))))
    (constantI S_ 1 1#1) reducesTo_S15x1_S15_d1 h_S_

/-! ## The second result -/

/-- The gate's column named by each column's start index, NaN where the index is out of range. -/
def taken (g : FVec F S1000000x3 .f32) : FVec F S1000000x15 .f32 :=
  select (broadcastInDim S1000000x15 ![1] bcast_S15_S1000000x15_1 inRange)
    (Host.gather gather_S1000000x3_S15x1_S1000000x15_0_1_n_n_1_1_10000001 g startCol)
    (broadcastInDim S1000000x15 ![] bcast_S_S1000000x15 (constant S_ .f32 0x7FC00000#32))

/-- The second result: the repeated gate times `ev`. -/
def out36 (inv : FVec F S1000000x128 .f32) (ev : FVec F S1000000x15 .f32) (W : FVec F S131x131 .f32)
    (b : FVec F S131 .f32) : FVec F S1000000x15 .f32 :=
  mulf (taken (gate inv ev W b)) ev

end Cert.ReferenceIdeal.RefTerm

end
-- ==== Proof.RefRun.lean ====
/-
  The reference program's @main as one straight line of StableHLO operations, and what a run of it leaves.
  @main calls four module-local functions (the roll of the repeat counts, the two running sums — each through an
  inner function of its own — and the take, which calls the select function); a call means its callee's body on the
  call's own buffers, so the line lists, at each call site, the callee's operations over that call's buffer record:
  seventy-six operations in all. Every buffer ends at the fold of the operations' results over the launch contents
  (`StableHlo.after`); at the two result buffers that fold is, by computation, the composed term of Proof/RefTerm.lean
  (`RefTerm.out17`, `RefTerm.out36`) of the four arguments' launch contents, and at the argument buffers it is what
  was there, no operation writing them.
-/
import proofs.«125287_j13889924235382_2_alg».proof.Proof.Gen.ReferenceIdeal
import proofs.«125287_j13889924235382_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's seventy-six operations in order, the calls unfolded: the roll of the counts is three (two slices and
    their concatenation) into `main_call0`'s buffers; each running sum is three (the zero, its broadcast, the
    windowed sum) into `main_call1.call0`'s and `main_call2.call0`'s; the take is twenty-three into `main_call3`'s,
    the select function's one among them into `main_call3.call0`'s. -/
abbrev ops : List (HloOp τ sig (Elt F)) :=
  [ nullary main_c (fun i => lit0 (S3.rowMajor i)),
    binary main_arg1 main_arg1 main_v0 (mulf : (⟨S1000000x15, .f32⟩ : BufTy).Contents (Elt F) → (⟨S1000000x15, .f32⟩ : BufTy).Contents (Elt F) → (⟨S1000000x15, .f32⟩ : BufTy).Contents (Elt F)),
    unary main_v0 main_v1 ((extractStridedSlice S1000000x3 ![0, 0] · slices_S1000000x15_S1000000x3_0_0) : (⟨S1000000x15, .f32⟩ : BufTy).Contents (Elt F) → (⟨S1000000x3, .f32⟩ : BufTy).Contents (Elt F)),
    nullary main_cst (constant S_ .f32 0x00000000#32),
    binary main_v1 main_cst main_v2 ((fun x v => Host.reduceAdd x v reducesTo_S1000000x3_S1000000_d1 h_S_) : (⟨S1000000x3, .f32⟩ : BufTy).Contents (Elt F) → (⟨S_, .f32⟩ : BufTy).Contents (Elt F) → (⟨S1000000, .f32⟩ : BufTy).Contents (Elt F)),
    unary main_v0 main_v3 ((extractStridedSlice S1000000x5 ![0, 3] · slices_S1000000x15_S1000000x5_0_3) : (⟨S1000000x15, .f32⟩ : BufTy).Contents (Elt F) → (⟨S1000000x5, .f32⟩ : BufTy).Contents (Elt F)),
    nullary main_cst_0 (constant S_ .f32 0x00000000#32),
    binary main_v3 main_cst_0 main_v4 ((fun x v => Host.reduceAdd x v reducesTo_S1000000x5_S1000000_d1 h_S_) : (⟨S1000000x5, .f32⟩ : BufTy).Contents (Elt F) → (⟨S_, .f32⟩ : BufTy).Contents (Elt F) → (⟨S1000000, .f32⟩ : BufTy).Contents (Elt F)),
    unary main_v0 main_v5 ((extractStridedSlice S1000000x7 ![0, 8] · slices_S1000000x15_S1000000x7_0_8) : (⟨S1000000x15, .f32⟩ : BufTy).Contents (Elt F) → (⟨S1000000x7, .f32⟩ : BufTy).Contents (Elt F)),
    nullary main_cst_1 (constant S_ .f32 0x00000000#32),
    binary main_v5 main_cst_1 main_v6 ((fun x v => Host.reduceAdd x v reducesTo_S1000000x7_S1000000_d1 h_S_) : (⟨S1000000x7, .f32⟩ : BufTy).Contents (Elt F) → (⟨S_, .f32⟩ : BufTy).Contents (Elt F) → (⟨S1000000, .f32⟩ : BufTy).Contents (Elt F)),
    unary main_v2 main_v7 (broadcastInDim S1000000x1 ![0] bcast_S1000000_S1000000x1_0 : (⟨S1000000, .f32⟩ : BufTy).Contents (Elt F) → (⟨S1000000x1, .f32⟩ : BufTy).Contents (Elt F)),
    unary main_v4 main_v8 (broadcastInDim S1000000x1 ![0] bcast_S1000000_S1000000x1_0 : (⟨S1000000, .f32⟩ : BufTy).Contents (Elt F) → (⟨S1000000x1, .f32⟩ : BufTy).Contents (Elt F)),
    unary main_v6 main_v9 (broadcastInDim S1000000x1 ![0] bcast_S1000000_S1000000x1_0 : (⟨S1000000, .f32⟩ : BufTy).Contents (Elt F) → (⟨S1000000x1, .f32⟩ : BufTy).Contents (Elt F)),
    nary ![main_v7, main_v8, main_v9] main_v10 (fun u => concatenate S1000000x3 1 [⟨S1000000x1, u 0⟩, ⟨S1000000x1, u 1⟩, ⟨S1000000x1, u 2⟩] concatenates_S1000000x1_S1000000x1_S1000000x1_S1000000x3_d1),
    binary main_arg0 main_v10 main_v11 ((fun a b => concatenate S1000000x131 1 [⟨S1000000x128, a⟩, ⟨S1000000x3, b⟩] concatenates_S1000000x128_S1000000x3_S1000000x131_d1) : (⟨S1000000x128, .f32⟩ : BufTy).Contents (Elt F) → (⟨S1000000x3, .f32⟩ : BufTy).Contents (Elt F) → (⟨S1000000x131, .f32⟩ : BufTy).Contents (Elt F)),
    unary main_arg2 main_v12 ((transpose S131x131 [1, 0] · transposes_S131x131_S131x131_1_0) : (⟨S131x131, .f32⟩ : BufTy).Contents (Elt F) → (⟨S131x131, .f32⟩ : BufTy).Contents (Elt F)),
    binary main_v11 main_v12 main_v13 ((fun l r => Host.dotGeneral dot_S1000000x131_S131x131_S1000000x131_1_0_0_1_n_n none l r) : (⟨S1000000x131, .f32⟩ : BufTy).Contents (Elt F) → (⟨S131x131, .f32⟩ : BufTy).Contents (Elt F) → (⟨S1000000x131, .f32⟩ : BufTy).Contents (Elt F)),
    unary main_arg3 main_v14 (broadcastInDim S1x131 ![1] bcast_S131_S1x131_1 : (⟨S131, .f32⟩ : BufTy).Contents (Elt F) → (⟨S1x131, .f32⟩ : BufTy).Contents (Elt F)),
    unary main_v14 main_v15 (broadcastInDim S1000000x131 ![0, 1] bcast_S1x131_S1000000x131_0_1 : (⟨S1x131, .f32⟩ : BufTy).Contents (Elt F) → (⟨S1000000x131, .f32⟩ : BufTy).Contents (Elt F)),
    binary main_v13 main_v15 main_v16 (addf : (⟨S1000000x131, .f32⟩ : BufTy).Contents (Elt F) → (⟨S1000000x131, .f32⟩ : BufTy).Contents (Elt F) → (⟨S1000000x131, .f32⟩ : BufTy).Contents (Elt F)),
    unary main_v16 main_v17 ((extractStridedSlice S1000000x128 ![0, 0] · slices_S1000000x131_S1000000x128_0_0) : (⟨S1000000x131, .f32⟩ : BufTy).Contents (Elt F) → (⟨S1000000x128, .f32⟩ : BufTy).Contents (Elt F)),
    unary main_v16 main_v18 ((extractStridedSlice S1000000x3 ![0, 128] · slices_S1000000x131_S1000000x3_0_128) : (⟨S1000000x131, .f32⟩ : BufTy).Contents (Elt F) → (⟨S1000000x3, .f32⟩ : BufTy).Contents (Elt F)),
    TRef.unary (.of main_c : TRef sig ⟨S3, .i32⟩) main_call0.v0 (extractStridedSlice S1 ![2] · slices_S3_S1_2),
    TRef.unary (.of main_c : TRef sig ⟨S3, .i32⟩) main_call0.v1 (extractStridedSlice S2 ![0] · slices_S3_S2_0),
    TRef.binary main_call0.v0 main_call0.v1 main_call0.v2 (fun a b => concatenate S3 0 [⟨S1, a⟩, ⟨S2, b⟩] concatenates_S1_S2_S3_d0),
    nullary main_c_2 (constantI S_ 32 0#32),
    unary main_c_2 main_v20 (broadcastInDim S1 ![] bcast_S_S1 : (⟨S_, .i32⟩ : BufTy).Contents (Elt F) → (⟨S1, .i32⟩ : BufTy).Contents (Elt F)),
    nullary main_c_3 (constantI S_ 32 0#32),
    ternary main_v19 main_v20 main_c_3 main_v21 ((fun x i u => Host.scatter scatter_S3_S1_S__n_0_0_0 (fun _ b => b) x i u) : (⟨S3, .i32⟩ : BufTy).Contents (Elt F) → (⟨S1, .i32⟩ : BufTy).Contents (Elt F) → (⟨S_, .i32⟩ : BufTy).Contents (Elt F) → (⟨S3, .i32⟩ : BufTy).Contents (Elt F)),
    TRef.nullary main_call1.call0.c (constantI S_ 32 0#32),
    TRef.unary main_call1.call0.c main_call1.call0.v0 (broadcastInDim S_ ![] bcast_S_S_),
    TRef.binary (.of main_v21 : TRef sig ⟨S3, .i32⟩) main_call1.call0.v0 main_call1.call0.v1 (fun x v => Host.reduceWindow IntOp.addi ![3] ![1] ![2] ![0] x v reduceWindows_S3_S3_w3s1p2_0 h_S_),
    nullary main_c_4 (constantI S_ 32 0#32),
    unary main_c_4 main_v23 (broadcastInDim S15 ![] bcast_S_S15 : (⟨S_, .i32⟩ : BufTy).Contents (Elt F) → (⟨S15, .i32⟩ : BufTy).Contents (Elt F)),
    nullary main_c_5 (constantI S_ 32 0#32),
    unary main_c_5 main_v24 (broadcastInDim S3 ![] bcast_S_S3 : (⟨S_, .i32⟩ : BufTy).Contents (Elt F) → (⟨S3, .i32⟩ : BufTy).Contents (Elt F)),
    binary main_v22 main_v24 main_v25 (cmpi .slt : (⟨S3, .i32⟩ : BufTy).Contents (Elt F) → (⟨S3, .i32⟩ : BufTy).Contents (Elt F) → (⟨S3, .i1⟩ : BufTy).Contents (Elt F)),
    nullary main_c_6 (constantI S_ 32 15#32),
    unary main_c_6 main_v26 (broadcastInDim S3 ![] bcast_S_S3 : (⟨S_, .i32⟩ : BufTy).Contents (Elt F) → (⟨S3, .i32⟩ : BufTy).Contents (Elt F)),
    binary main_v22 main_v26 main_v27 (addi : (⟨S3, .i32⟩ : BufTy).Contents (Elt F) → (⟨S3, .i32⟩ : BufTy).Contents (Elt F) → (⟨S3, .i32⟩ : BufTy).Contents (Elt F)),
    ternary main_v25 main_v27 main_v22 main_v28 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    unary main_v28 main_v29 (broadcastInDim S3x1 ![0] bcast_S3_S3x1_0 : (⟨S3, .i32⟩ : BufTy).Contents (Elt F) → (⟨S3x1, .i32⟩ : BufTy).Contents (Elt F)),
    nullary main_c_7 (constantI S_ 32 1#32),
    unary main_c_7 main_v30 (broadcastInDim S3 ![] bcast_S_S3 : (⟨S_, .i32⟩ : BufTy).Contents (Elt F) → (⟨S3, .i32⟩ : BufTy).Contents (Elt F)),
    ternary main_v23 main_v29 main_v30 main_v31 ((fun x i u => Host.scatter scatter_S15_S3x1_S3_n_0_0_1 IntOp.addi x i u) : (⟨S15, .i32⟩ : BufTy).Contents (Elt F) → (⟨S3x1, .i32⟩ : BufTy).Contents (Elt F) → (⟨S3, .i32⟩ : BufTy).Contents (Elt F) → (⟨S15, .i32⟩ : BufTy).Contents (Elt F)),
    TRef.nullary main_call2.call0.c (constantI S_ 32 0#32),
    TRef.unary main_call2.call0.c main_call2.call0.v0 (broadcastInDim S_ ![] bcast_S_S_),
    TRef.binary (.of main_v31 : TRef sig ⟨S15, .i32⟩) main_call2.call0.v0 main_call2.call0.v1 (fun x v => Host.reduceWindow IntOp.addi ![15] ![1] ![14] ![0] x v reduceWindows_S15_S15_w15s1p14_0 h_S_),
    nullary main_c_8 (constantI S_ 32 1#32),
    unary main_c_8 main_v33 (broadcastInDim S15 ![] bcast_S_S15 : (⟨S_, .i32⟩ : BufTy).Contents (Elt F) → (⟨S15, .i32⟩ : BufTy).Contents (Elt F)),
    binary main_v32 main_v33 main_v34 (subi : (⟨S15, .i32⟩ : BufTy).Contents (Elt F) → (⟨S15, .i32⟩ : BufTy).Contents (Elt F) → (⟨S15, .i32⟩ : BufTy).Contents (Elt F)),
    TRef.nullary main_call3.c (constantI S_ 32 0#32),
    TRef.unary main_call3.c main_call3.v0 (broadcastInDim S15 ![] bcast_S_S15),
    TRef.binary (.of main_v34 : TRef sig ⟨S15, .i32⟩) main_call3.v0 main_call3.v1 (cmpi .slt),
    TRef.nullary main_call3.c_0 (constantI S_ 32 3#32),
    TRef.unary main_call3.c_0 main_call3.v2 (broadcastInDim S15 ![] bcast_S_S15),
    TRef.binary (.of main_v34 : TRef sig ⟨S15, .i32⟩) main_call3.v2 main_call3.v3 addi,
    TRef.ternary main_call3.v1 main_call3.v3 (.of main_v34 : TRef sig ⟨S15, .i32⟩) main_call3.call0.v0 select,
    TRef.unary main_call3.call0.v0 main_call3.v5 (broadcastInDim S15x1 ![0] bcast_S15_S15x1_0),
    TRef.nullary main_call3.c_1 (constantI S1 32 2#32),
    TRef.nullary main_call3.c_2 (constantI S_ 32 0#32),
    TRef.unary main_call3.c_2 main_call3.v6 (broadcastInDim S15x1 ![] bcast_S_S15x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S15x1 ![0, 1] bcast_S1x1_S15x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S15x1_S15_d1 h_S_),
    TRef.binary (.of main_v18 : TRef sig ⟨S1000000x3, .f32⟩) main_call3.v5 main_call3.v13 (fun x i => Host.gather gather_S1000000x3_S15x1_S1000000x15_0_1_n_n_1_1_10000001 x i),
    TRef.unary main_call3.v12 main_call3.v14 (broadcastInDim S1000000x15 ![1] bcast_S15_S1000000x15_1),
    TRef.nullary main_call3.cst (constant S_ .f32 0x7FC00000#32),
    TRef.unary main_call3.cst main_call3.v15 (broadcastInDim S1000000x15 ![] bcast_S_S1000000x15),
    TRef.ternary main_call3.v14 main_call3.v13 main_call3.v15 main_call3.v16 select,
    binary main_v35 main_arg1 main_v36 (mulf : (⟨S1000000x15, .f32⟩ : BufTy).Contents (Elt F) → (⟨S1000000x15, .f32⟩ : BufTy).Contents (Elt F) → (⟨S1000000x15, .f32⟩ : BufTy).Contents (Elt F)) ]

/-- @main is that straight line: the functions' bodies substituted at their calls and sequencing re-associated,
    both by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., binary_bufs_sub .., unary_bufs_sub .., nullary_bufs_sub .., binary_bufs_sub .., unary_bufs_sub .., nullary_bufs_sub .., binary_bufs_sub .., unary_bufs_sub .., nullary_bufs_sub .., binary_bufs_sub .., unary_bufs_sub .., unary_bufs_sub .., unary_bufs_sub .., nary_bufs_sub .., binary_bufs_sub .., unary_bufs_sub .., binary_bufs_sub .., unary_bufs_sub .., unary_bufs_sub .., binary_bufs_sub .., unary_bufs_sub .., unary_bufs_sub .., unary_bufs_sub .., unary_bufs_sub .., binary_bufs_sub .., nullary_bufs_sub .., unary_bufs_sub .., nullary_bufs_sub .., ternary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub ..⟩

attribute [local irreducible] Host.reduce Host.gather Host.scatter Host.reduceWindow Host.reduceAdd
  broadcastInDim select cmpi andi addi subi mulf addf extractStridedSlice concatenate transpose constant constantI in
set_option maxHeartbeats 800000 in
set_option maxRecDepth 8192 in
/-- The fold at the first result buffer is `RefTerm.out17` of the arguments' contents: each operation's result at
    its own buffer is its function's value and at any other buffer what was there; the typed references' transports
    are the identity at these literal references. The pure operations are kept folded meanwhile: the equation never
    looks inside them. -/
theorem out17_eq (V : Valuation τ sig (Elt F)) :
    after ops V (main_v17 : DevRef τ sig)
      = RefTerm.out17 (V (main_arg0 : DevRef τ sig)) (V (main_arg1 : DevRef τ sig)) (V (main_arg2 : DevRef τ sig))
          (V (main_arg3 : DevRef τ sig)) := by
  after_results_simp
  rfl

attribute [local irreducible] Host.reduce Host.gather Host.scatter Host.reduceWindow Host.reduceAdd
  broadcastInDim select cmpi andi addi subi mulf addf extractStridedSlice concatenate transpose constant constantI in
set_option maxHeartbeats 800000 in
set_option maxRecDepth 8192 in
/-- The fold at the second result buffer is `RefTerm.out36` of the arguments' contents, in the same way; its integer
    stages read literals only. -/
theorem out36_eq (V : Valuation τ sig (Elt F)) :
    after ops V (main_v36 : DevRef τ sig)
      = RefTerm.out36 (V (main_arg0 : DevRef τ sig)) (V (main_arg1 : DevRef τ sig)) (V (main_arg2 : DevRef τ sig))
          (V (main_arg3 : DevRef τ sig)) := by
  after_results_simp
  rfl

/-- No operation writes an argument buffer. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

/-- On every device, for any float values, from any memory with zero counters: every weakly fair execution of
    @main terminates with the two results at the composed terms of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17) = RefTerm.out17 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v36) = RefTerm.out36 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v17).trans (out17_eq _), (h c main_v36).trans (out36_eq _),
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

end Cert.ReferenceIdeal.RefRun

end
-- ==== Proof.RefIndex.lean ====
/-
  The integer side of the reference: the index arithmetic by which three gate columns are repeated over
  fifteen output columns, evaluated stage by stage on its literals. The repeat counts `[3, 5, 7]`, rolled
  by one to `[7, 3, 5]`, with entry 0 set to zero `[0, 3, 5]`, have the running sum `[0, 3, 8]`: the first
  column of each segment. A one added at columns 0, 3 and 8 of fifteen zeros has the running sum
  `[1, 1, 1, 2, 2, 2, 2, 2, 3, 3, 3, 3, 3, 3, 3]`, and that minus one is the segment number of each column:
  0 on columns 0–2, 1 on columns 3–7, 2 on columns 8–14 (`seg`). No segment number is negative, so the
  wrap-around leaves it unchanged; every one lies in `[0, 2]`, so the mask is all ones and the clamp of the
  gather is the identity. Hence the gathered array reads, at row `n` and column `c`, the gate at row `n` and
  column `seg c` (`taken_apply`).
-/
import proofs.«125287_j13889924235382_2_alg».proof.Proof.Gen.ReferenceIdeal
import proofs.«125287_j13889924235382_2_alg».proof.Proof.RefTerm
import Idealize.ShloMosaic.Lib.ValueIdx

namespace Cert.ReferenceIdeal.RefIndex

open Idealize.ShloMosaic Idealize.ShloMosaic.ValueIdx Cert.ReferenceIdeal Cert.ReferenceIdeal.Gen

/-! ## The segment starts, over three entries -/

theorem counts_eq : RefTerm.counts = fun i => (![3#32, 5#32, 7#32] : Fin 3 → BitVec 32) (i 0) := by
  funext i
  obtain ⟨a, rfl⟩ : ∃ a : Fin 3, i = ix1 a := ⟨i 0, eq_ix1 i⟩
  revert a; decide

theorem rolled_eq : RefTerm.rolled = fun i => (![7#32, 3#32, 5#32] : Fin 3 → BitVec 32) (i 0) := by
  unfold RefTerm.rolled
  rw [counts_eq]
  funext i
  obtain ⟨a, rfl⟩ : ∃ a : Fin 3, i = ix1 a := ⟨i 0, eq_ix1 i⟩
  revert a; decide

theorem exclusive_eq : RefTerm.exclusive = fun i => (![0#32, 3#32, 5#32] : Fin 3 → BitVec 32) (i 0) := by
  unfold RefTerm.exclusive
  rw [rolled_eq]
  funext i
  obtain ⟨a, rfl⟩ : ∃ a : Fin 3, i = ix1 a := ⟨i 0, eq_ix1 i⟩
  revert a; decide

theorem starts_eq : RefTerm.starts = fun i => (![0#32, 3#32, 8#32] : Fin 3 → BitVec 32) (i 0) := by
  unfold RefTerm.starts
  rw [exclusive_eq]
  funext i
  obtain ⟨a, rfl⟩ : ∃ a : Fin 3, i = ix1 a := ⟨i 0, eq_ix1 i⟩
  revert a; decide

theorem startsWrapped_eq : RefTerm.startsWrapped = fun i => (![0#32, 3#32, 8#32] : Fin 3 → BitVec 32) (i 0) := by
  unfold RefTerm.startsWrapped
  rw [starts_eq]
  funext i
  obtain ⟨a, rfl⟩ : ∃ a : Fin 3, i = ix1 a := ⟨i 0, eq_ix1 i⟩
  revert a; decide

theorem marks_eq : RefTerm.marks = fun i => (![1#32, 0#32, 0#32, 1#32, 0#32, 0#32, 0#32, 0#32, 1#32, 0#32, 0#32, 0#32, 0#32, 0#32, 0#32] : Fin 15 → BitVec 32) (i 0) := by
  unfold RefTerm.marks
  rw [startsWrapped_eq]
  funext i
  obtain ⟨a, rfl⟩ : ∃ a : Fin 15, i = ix1 a := ⟨i 0, eq_ix1 i⟩
  revert a; decide

theorem marksSum_eq : RefTerm.marksSum = fun i => (![1#32, 1#32, 1#32, 2#32, 2#32, 2#32, 2#32, 2#32, 3#32, 3#32, 3#32, 3#32, 3#32, 3#32, 3#32] : Fin 15 → BitVec 32) (i 0) := by
  unfold RefTerm.marksSum
  rw [marks_eq]
  funext i
  obtain ⟨a, rfl⟩ : ∃ a : Fin 15, i = ix1 a := ⟨i 0, eq_ix1 i⟩
  revert a; decide

theorem segOf_eq : RefTerm.segOf = fun i => (![0#32, 0#32, 0#32, 1#32, 1#32, 1#32, 1#32, 1#32, 2#32, 2#32, 2#32, 2#32, 2#32, 2#32, 2#32] : Fin 15 → BitVec 32) (i 0) := by
  unfold RefTerm.segOf
  rw [marksSum_eq]
  funext i
  obtain ⟨a, rfl⟩ : ∃ a : Fin 15, i = ix1 a := ⟨i 0, eq_ix1 i⟩
  revert a; decide

theorem segWrapped_eq : RefTerm.segWrapped = fun i => (![0#32, 0#32, 0#32, 1#32, 1#32, 1#32, 1#32, 1#32, 2#32, 2#32, 2#32, 2#32, 2#32, 2#32, 2#32] : Fin 15 → BitVec 32) (i 0) := by
  unfold RefTerm.segWrapped
  rw [segOf_eq]
  funext i
  obtain ⟨a, rfl⟩ : ∃ a : Fin 15, i = ix1 a := ⟨i 0, eq_ix1 i⟩
  revert a; decide

/-! ## The segment of a column, the start indices and the mask -/

/-- The segment (0, 1 or 2) of an output column: columns 0–2, 3–7, 8–14. -/
def seg (c : Fin 15) : Fin 3 := if c.val < 3 then 0 else if c.val < 8 then 1 else 2

theorem startCol_eq : RefTerm.startCol = fun i => (![0#32, 0#32, 0#32, 1#32, 1#32, 1#32, 1#32, 1#32, 2#32, 2#32, 2#32, 2#32, 2#32, 2#32, 2#32] : Fin 15 → BitVec 32) (i 0) := by
  unfold RefTerm.startCol
  rw [segWrapped_eq]
  funext i
  obtain ⟨a, b, rfl⟩ : ∃ (a : Fin 15) (b : Fin 1), i = ix2 a b := ⟨i 0, i 1, eq_ix2 i⟩
  revert a b; decide

theorem startCol_apply (c : Fin 15) : RefTerm.startCol (ix2 c (0 : Fin 1)) = BitVec.ofNat 32 (seg c).val := by
  rw [startCol_eq]
  revert c; decide

theorem inRange_eq : RefTerm.inRange = fun _ => 1#1 := by
  unfold RefTerm.inRange
  rw [startCol_eq]
  funext i
  obtain ⟨a, rfl⟩ : ∃ a : Fin 15, i = ix1 a := ⟨i 0, eq_ix1 i⟩
  revert a; decide

/-! ## The gather read at an index -/

/-- A segment number read as a signed 32-bit word and clamped into `[0, 2]` is itself. -/
theorem clamp_seg (c : Fin 15) : min (BitVec.ofNat 32 (seg c).val).toInt.toNat 2 = (seg c).val := by
  revert c; decide

/-- The gather's dimension numbers. -/
private abbrev gd := gather_S1000000x3_S15x1_S1000000x15_0_1_n_n_1_1_10000001

/-- THE DELIVERABLE: the gather-with-mask reads the gate's column of the output column's segment. -/
theorem taken_apply {F : FTy → Type} [FloatOps F] (g : FVec F S1000000x3 .f32) (n : Fin 1000000) (c : Fin 15) :
    RefTerm.taken g (ix2 n c) = g (ix2 n (seg c)) := by
  unfold RefTerm.taken
  rw [select_apply, inRange_eq]
  show Scalar.select 1#1 _ _ = _
  rw [select_one]
  unfold Host.gather
  congr 1
  funext a
  refine Fin.ext ?_
  show gd.start (ix2 n c) RefTerm.startCol a + gd.batchCoord (ix2 n c) a + gd.offCoord (ix2 n c) a = _
  rw [GatherDims.batchCoord_eq_zero _ _ _ List.not_mem_nil, Nat.add_zero]
  match a with
  | ⟨0, _⟩ =>
    have hs : gd.start (ix2 n c) RefTerm.startCol ⟨0, by decide⟩ = 0 := by
      unfold GatherDims.start
      rw [dif_neg (by decide)]
    have ho : gd.offCoord (ix2 n c) ⟨0, by decide⟩ = n.val := rfl
    rw [hs, ho, Nat.zero_add]
  | ⟨1, _⟩ =>
    show gd.start (ix2 n c) RefTerm.startCol (1 : Fin 2) + gd.offCoord (ix2 n c) (1 : Fin 2) = (seg c).val
    rw [GatherDims.offCoord_eq_zero _ _ _ (fun h => ((GatherDims.mem_sKept _ _).mp h).1 (List.mem_singleton.mpr rfl)),
      Nat.add_zero]
    unfold GatherDims.start
    rw [dif_pos (show (1 : Fin 2) ∈ gd.startIndexMap from List.mem_singleton.mpr rfl)]
    have hsi : gd.siIdx (ix2 n c) ⟨List.idxOf (1 : Fin 2) gd.startIndexMap,
        List.idxOf_lt_length_iff.2 (List.mem_singleton.mpr rfl)⟩ = ix2 c (0 : Fin 1) := by
      funext b; refine Fin.ext ?_
      match b with
      | ⟨0, _⟩ => rfl
      | ⟨1, _⟩ => rfl
    rw [hsi, startCol_apply]
    exact clamp_seg c

end Cert.ReferenceIdeal.RefIndex
-- ==== Proof.RefRead.lean ====
/-
  The reference's two results are the specification's functions, entry by entry, on the extended reals.

  Read at row n: the three segment sums are the host's sums (from the zero word) over the three column slices of the
  squared features; the 131-wide row is the 128 invariant features followed by the three segment sums; the linear
  layer at output o is the product's sum over the 131 inputs of row(n, k) · W(o, k) — the transposed weights read back
  at (o, k) — plus b(o), and that sum splits into the first 128 inputs and the last 3. The first result is outputs
  0–127; the gate is outputs 128–130; the second result reads the gate at the column's segment (the integer side)
  and multiplies by the feature.
-/
import proofs.«125287_j13889924235382_2_alg».proof.Proof.Gen.ReferenceIdeal
import proofs.«125287_j13889924235382_2_alg».proof.Proof.RefTerm
import proofs.«125287_j13889924235382_2_alg».proof.Proof.RefIndex
import proofs.«125287_j13889924235382_2_alg».proof.Proof.Spec
import proofs.«125287_j13889924235382_2_alg».proof.Proof.LibRowOps
import Idealize.ShloMosaic.Lib.ValueLayout

noncomputable section

open scoped BigOperators

namespace Cert.ReferenceIdeal.RefRead

open Idealize.ShloMosaic Idealize.ShloMosaic.ValueIdx Cert.ReferenceIdeal Cert.ReferenceIdeal.Gen
open Cert.LibRowOps

variable (inv : FVec Ideal S1000000x128 .f32) (ev : FVec Ideal S1000000x15 .f32) (W : FVec Ideal S131x131 .f32)
  (b : FVec Ideal S131 .f32)

/-- A vector broadcast to a column reads, at (n, u), the vector at n. -/
theorem col_apply (x : FVec Ideal S1000000 .f32) (n : Fin 1000000) (u : Fin 1) :
    broadcastInDim S1000000x1 ![0] bcast_S1000000_S1000000x1_0 x (ix2 n u) = x (ix1 n) :=
  broadcastInDim_apply _ _ x (ix2 n u) (ix1 n) fun a => by
    match a with
    | ⟨0, _⟩ => rfl

/-- The three segment sums of row n. -/
theorem evInv_apply (n : Fin 1000000) (j : Fin 3) : RefTerm.evInv (F := Ideal) ev (ix2 n j) = Spec.segSum ev n j := by
  unfold RefTerm.evInv
  match j with
  | ⟨0, _⟩ =>
    refine (concat3_apply_0 _ _ _ _ n (⟨0, by omega⟩ : Fin 3) (0 : Fin 1) rfl).trans ?_
    refine (col_apply _ n 0).trans ?_
    unfold RefTerm.seg0
    refine (hostRowAdd_apply _ _ _ (by decide) _ n).trans ?_
    refine (congrArg (· + _) Ideal.ofBits_zero_f32).trans ((zero_add _).trans ?_)
    exact Finset.sum_congr rfl fun k _ => slice2_axis1_apply 0 _ _ n k (⟨0 + k.val, by omega⟩ : Fin 15) rfl
  | ⟨1, _⟩ =>
    refine (concat3_apply_1 _ _ _ _ n (⟨1, by omega⟩ : Fin 3) (0 : Fin 1) rfl).trans ?_
    refine (col_apply _ n 0).trans ?_
    unfold RefTerm.seg1
    refine (hostRowAdd_apply _ _ _ (by decide) _ n).trans ?_
    refine (congrArg (· + _) Ideal.ofBits_zero_f32).trans ((zero_add _).trans ?_)
    exact Finset.sum_congr rfl fun k _ => slice2_axis1_apply 3 _ _ n k (⟨3 + k.val, by omega⟩ : Fin 15) rfl
  | ⟨2, _⟩ =>
    refine (concat3_apply_2 _ _ _ _ n (⟨2, by omega⟩ : Fin 3) (0 : Fin 1) rfl).trans ?_
    refine (col_apply _ n 0).trans ?_
    unfold RefTerm.seg2
    refine (hostRowAdd_apply _ _ _ (by decide) _ n).trans ?_
    refine (congrArg (· + _) Ideal.ofBits_zero_f32).trans ((zero_add _).trans ?_)
    exact Finset.sum_congr rfl fun k _ => slice2_axis1_apply 8 _ _ n k (⟨8 + k.val, by omega⟩ : Fin 15) rfl

/-- The 131-wide row: the invariant features, then the segment sums. -/
theorem cat_left (n : Fin 1000000) (k : Fin 128) :
    RefTerm.cat (F := Ideal) inv ev (ix2 n (⟨k.val, by omega⟩ : Fin 131)) = inv (ix2 n k) :=
  concat2_apply_0 _ _ _ n _ k rfl
theorem cat_right (n : Fin 1000000) (j : Fin 3) :
    RefTerm.cat (F := Ideal) inv ev (ix2 n (⟨128 + j.val, by omega⟩ : Fin 131)) = Spec.segSum ev n j :=
  (concat2_apply_1 _ _ _ n _ j rfl).trans (evInv_apply ev n j)

/-- The product's dimension numbers: result axis 0 is the left operand's axis 0, result axis 1 the right's axis 1. -/
theorem d_l0 (i : S1000000x131.Idx) (c : dot_S1000000x131_S131x131_S1000000x131_1_0_0_1_n_n.contr.Idx) :
    (dot_S1000000x131_S131x131_S1000000x131_1_0_0_1_n_n.lhsIdx i c 0).val = (i 0).val := by
  unfold DotDims.lhsIdx
  rw [dif_neg (show ¬(0 : Fin _) ∈ dot_S1000000x131_S131x131_S1000000x131_1_0_0_1_n_n.lhsBatch by decide),
    dif_pos (show (0 : Fin _) ∈ dot_S1000000x131_S131x131_S1000000x131_1_0_0_1_n_n.lhsNonContracting by decide)]
  rfl
theorem d_r1 (i : S1000000x131.Idx) (c : dot_S1000000x131_S131x131_S1000000x131_1_0_0_1_n_n.contr.Idx) :
    (dot_S1000000x131_S131x131_S1000000x131_1_0_0_1_n_n.rhsIdx i c 1).val = (i 1).val := by
  unfold DotDims.rhsIdx
  rw [dif_neg (show ¬(1 : Fin _) ∈ dot_S1000000x131_S131x131_S1000000x131_1_0_0_1_n_n.rhsBatch by decide),
    dif_pos (show (1 : Fin _) ∈ dot_S1000000x131_S131x131_S1000000x131_1_0_0_1_n_n.rhsNonContracting by decide)]
  rfl

/-- The bias broadcast over the rows reads, at (n, o), b(o). -/
theorem bias_apply (n : Fin 1000000) (o : Fin 131) :
    broadcastInDim S1000000x131 ![0, 1] bcast_S1x131_S1000000x131_0_1 (broadcastInDim S1x131 ![1] bcast_S131_S1x131_1 b) (ix2 n o)
      = b (ix1 o) := by
  refine (broadcastInDim_apply _ _ _ (ix2 n o) (ix2 (0 : Fin 1) o) fun a => ?_).trans ?_
  · match a with
    | ⟨0, _⟩ => rfl
    | ⟨1, _⟩ => rfl
  exact broadcastInDim_apply _ _ b (ix2 (0 : Fin 1) o) (ix1 o) fun a => by
    match a with
    | ⟨0, _⟩ => rfl

/-- The linear layer at row n, output o, its 131-term sum split into the 128 invariant inputs and the 3 segment sums. -/
theorem lin_apply (n : Fin 1000000) (o : Fin 131) :
    RefTerm.lin (F := Ideal) inv ev W b (ix2 n o)
      = (∑ k : Fin 128, inv (ix2 n k) * W (ix2 o (⟨k.val, by omega⟩ : Fin 131))
          + ∑ j : Fin 3, Spec.segSum ev n j * W (ix2 o (⟨128 + j.val, by omega⟩ : Fin 131))) + b (ix1 o) := by
  have e13 : Host.dotGeneral (F := Ideal) dot_S1000000x131_S131x131_S1000000x131_1_0_0_1_n_n none (RefTerm.cat (F := Ideal) inv ev)
      (transpose S131x131 [1, 0] W transposes_S131x131_S131x131_1_0) (ix2 n o)
      = ∑ k : Fin 128, inv (ix2 n k) * W (ix2 o (⟨k.val, by omega⟩ : Fin 131))
          + ∑ j : Fin 3, Spec.segSum ev n j * W (ix2 o (⟨128 + j.val, by omega⟩ : Fin 131)) := by
    refine (dotGeneral_ix2 _ rfl rfl rfl rfl d_l0 d_r1 none _ _ n o).trans ?_
    refine (Spec.sum_split _).trans ?_
    refine congrArg₂ (· + ·) (Finset.sum_congr rfl fun k _ => ?_) (Finset.sum_congr rfl fun j _ => ?_)
    · rw [cat_left, transpose_ix2_apply]
    · rw [cat_right, transpose_ix2_apply]
  unfold RefTerm.lin
  exact congrArg₂ (· + ·) e13 (bias_apply b n o)

/-- The first result is `Spec.G8`. -/
theorem out17_eq : RefTerm.out17 (F := Ideal) inv ev W b = Spec.G8 inv ev W b := by
  funext i
  obtain ⟨n, o, rfl⟩ : ∃ (n : Fin 1000000) (o : Fin 128), i = ix2 n o := ⟨i 0, i 1, eq_ix2 i⟩
  unfold RefTerm.out17
  refine (slice2_axis1_apply 0 _ _ n o (⟨o.val, by omega⟩ : Fin 131) (Nat.zero_add _).symm).trans ?_
  exact lin_apply inv ev W b n _

/-- The second result is `Spec.G9`. -/
theorem out36_eq : RefTerm.out36 (F := Ideal) inv ev W b = Spec.G9 inv ev W b := by
  funext i
  obtain ⟨n, c, rfl⟩ : ∃ (n : Fin 1000000) (c : Fin 15), i = ix2 n c := ⟨i 0, i 1, eq_ix2 i⟩
  unfold RefTerm.out36
  refine congrArg (· * ev (ix2 n c)) ?_
  refine (RefIndex.taken_apply _ n c).trans ?_
  unfold RefTerm.gate
  refine (slice2_axis1_apply 128 _ _ n (RefIndex.seg c) (⟨128 + (RefIndex.seg c).val, by omega⟩ : Fin 131) rfl).trans ?_
  exact lin_apply inv ev W b n _

end Cert.ReferenceIdeal.RefRead

end
-- ==== Proof.lean ====
/-
  The claim: the kernel and its jnp reference compute the same two arrays on the extended reals.

  Per row n, with seg(n, ·) the three sums of squares of the row's equivariant features over columns 0–2, 3–7, 8–14:
      first result  (n, o) = (Σ_{k<128} inv(n,k)·W(o,k) + Σ_{j<3} seg(n,j)·W(o,128+j)) + b(o)            for o < 128,
      second result (n, c) = ((Σ_k inv(n,k)·W(128+g,k) + Σ_j seg(n,j)·W(128+g,128+j)) + b(128+g)) · ev(n,c), g the segment of c.
  The kernel computes exactly these sums, block of 10000 rows by block, from the four corners of the transposed weight
  matrix (Proof/KernelPay.lean: the body's arithmetic at an entry; Proof/KernelValue.lean: the blocks cover the arrays).
  The reference forms the 131-wide row [inv | seg], multiplies by the transposed weights and adds the bias; its sum over
  131 inputs splits into the first 128 and the last 3, and its repetition of the three gate columns over fifteen
  columns — index arithmetic on literals — selects the segment of each column (Proof/RefRun.lean: the run;
  Proof/RefIndex.lean: the integer side; Proof/RefRead.lean: the results at an entry). Only commutative-monoid laws of
  the extended reals are used, so the precondition (finite inputs) is never opened. The three frames: the two kernel
  programs' are the generated frame certificates; the reference's is its run with the results forgotten. The ideal
  pass rewrote nothing, so `preserves` is `True`.
-/
import proofs.«125287_j13889924235382_2_alg».proof.Defs
import proofs.«125287_j13889924235382_2_alg».proof.Proof.Gen.Kernel
import proofs.«125287_j13889924235382_2_alg».proof.Proof.Gen.Kernel.Skeleton
import proofs.«125287_j13889924235382_2_alg».proof.Proof.Gen.Kernel.Launch
import proofs.«125287_j13889924235382_2_alg».proof.Proof.Gen.Kernel.Points
import proofs.«125287_j13889924235382_2_alg».proof.Proof.Gen.Kernel.Frame
import proofs.«125287_j13889924235382_2_alg».proof.Proof.Gen.KernelIdeal
import proofs.«125287_j13889924235382_2_alg».proof.Proof.Gen.KernelIdeal.Skeleton
import proofs.«125287_j13889924235382_2_alg».proof.Proof.Gen.KernelIdeal.Launch
import proofs.«125287_j13889924235382_2_alg».proof.Proof.Gen.KernelIdeal.Points
import proofs.«125287_j13889924235382_2_alg».proof.Proof.Gen.KernelIdeal.Frame
import proofs.«125287_j13889924235382_2_alg».proof.Proof.Gen.KernelIdeal.Value
import proofs.«125287_j13889924235382_2_alg».proof.Proof.Gen.ReferenceIdeal
import proofs.«125287_j13889924235382_2_alg».proof.Proof.Gen.Pre_finite_inputs
import proofs.«125287_j13889924235382_2_alg».proof.Proof.KernelValue
import proofs.«125287_j13889924235382_2_alg».proof.Proof.RefRun
import proofs.«125287_j13889924235382_2_alg».proof.Proof.RefRead
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The reference runs and leaves its arguments unchanged: its run, the two results forgotten. -/
theorem frame_ri : Cert.frame_ReferenceIdeal := fun m ρ _ =>
  (θ_run Cert.ReferenceIdeal.defs _ _).mono (fun _ h c => (h c).2.2) (Cert.ReferenceIdeal.RefRun.run (F := Ideal) m ρ)

/-- The ideal pass rewrote no operation. -/
theorem preserves : Cert.preserves_Kernel_KernelIdeal := trivial

/-- From memories agreeing on the arguments both programs end with the two results at `Spec.G8` and `Spec.G9` of the
    arguments. -/
theorem algebraic : Cert.algebraic_KernelIdeal_ReferenceIdeal := by
  intro m ρ m' ρ' _ hagree
  refine ⟨_, _, Cert.KernelIdeal.Arr.run m ρ, ?_⟩
  refine (θ_run Cert.ReferenceIdeal.defs _ _).mono (fun _ h c => ⟨?_, ?_, (h c).2.2⟩)
    (Cert.ReferenceIdeal.RefRun.run (F := Ideal) m' ρ')
  · rw [(h c).1, Cert.ReferenceIdeal.RefRead.out17_eq, (hagree c).1, (hagree c).2.1, (hagree c).2.2.1, (hagree c).2.2.2]
  · rw [(h c).2.1, Cert.ReferenceIdeal.RefRead.out36_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
